-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S2x1600000 : Shape := ⟨2, ![2, 1600000]⟩
abbrev S128x63 : Shape := ⟨2, ![128, 63]⟩
abbrev S128 : Shape := ⟨1, ![128]⟩
abbrev S128x129 : Shape := ⟨2, ![128, 129]⟩
abbrev S128x128 : Shape := ⟨2, ![128, 128]⟩
abbrev S1x128 : Shape := ⟨2, ![1, 128]⟩
abbrev S1 : Shape := ⟨1, ![1]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S128x63 : S_.BroadcastsInDim S128x63 (![] : Fin 0 → Fin S128x63.rank)
  reducesTo_S128x63_S_d0_1 : S128x63.ReducesTo [0, 1] S_
  bcast_S_S128 : S_.BroadcastsInDim S128 (![] : Fin 0 → Fin S128.rank)
  reducesTo_S128_S_d0 : S128.ReducesTo [0] S_
  bcast_S_S128x129 : S_.BroadcastsInDim S128x129 (![] : Fin 0 → Fin S128x129.rank)
  reducesTo_S128x129_S_d0_1 : S128x129.ReducesTo [0, 1] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S128 .f32) (main_arg9 : FVec F S1x128 .f32) (main_arg10 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S1x128 .f32 := Host.absf main_arg9
  let main_cst_14 : FVec F S_ .f32 := constant S_ .f32 0x7F800000#32
  let main_v40 : FVec F S1x128 .f32 := broadcastInDim S1x128 ![] bcast_S_S1x128 main_cst_14
  let main_v41 : IVec S1x128 1 := cmpf .olt main_v39 main_v40
  let main_c_15 : IVec S_ 1 := constantI S_ 1 1#1
  let main_v42 : IVec S_ 1 := (fun x v => Host.reduce IntOp.andi x v reducesTo_S1x128_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S128 .f32) (main_arg6 : FVec F S128x129 .f32) (main_arg7 : FVec F S128x128 .f32) (main_arg8 : FVec F S128 .f32) (main_arg9 : FVec F S1x128 .f32) (main_arg10 : FVec F S1 .f32) (main_v13 : IVec S_ 1) (main_v16 : IVec S128x129 1) : IVec S_ 1 :=
  let main_c_5 : IVec S_ 1 := constantI S_ 1 1#1
  let main_v17 : IVec S_ 1 := (fun x v => Host.reduce IntOp.andi x v reducesTo_S128x129_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x129 .f32 := Host.absf main_arg6
  let main_cst_8 : FVec F S_ .f32 := constant S_ .f32 0x7F800000#32
  let main_v25 : FVec F S128x129 .f32 := broadcastInDim S128x129 ![] bcast_S_S128x129 main_cst_8
  let main_v26 : IVec S128x129 1 := cmpf .olt main_v24 main_v25
  let main_c_9 : IVec S_ 1 := constantI S_ 1 1#1
  let main_v27 : IVec S_ 1 := (fun x v => Host.reduce IntOp.andi x v reducesTo_S128x129_S_d0_1 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S200000x64 .f32) (main_arg1 : IVec S2x1600000 32) (main_arg2 : FVec F S128x63 .f32) (main_arg3 : FVec F S128 .f32) (main_arg4 : FVec F S128x129 .f32) (main_arg5 : FVec F S128 .f32) (main_arg6 : FVec F S128x129 .f32) (main_arg7 : FVec F S128x128 .f32) (main_arg8 : FVec F S128 .f32) (main_arg9 : FVec F S1x128 .f32) (main_arg10 : FVec F S1 .f32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S128x63 .f32 := Host.absf main_arg2
  let main_cst_0 : FVec F S_ .f32 := constant S_ .f32 0x7F800000#32
  let main_v5 : FVec F S128x63 .f32 := broadcastInDim S128x63 ![] bcast_S_S128x63 main_cst_0
  let main_v6 : IVec S128x63 1 := cmpf .olt main_v4 main_v5
  let main_c_1 : IVec S_ 1 := constantI S_ 1 1#1
  let main_v7 : IVec S_ 1 := (fun x v => Host.reduce IntOp.andi x v reducesTo_S128x63_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x129 .f32 := Host.absf main_arg4
  let main_cst_4 : FVec F S_ .f32 := constant S_ .f32 0x7F800000#32
  let main_v15 : FVec F S128x129 .f32 := broadcastInDim S128x129 ![] bcast_S_S128x129 main_cst_4
  let main_v16 : IVec S128x129 1 := cmpf .olt main_v14 main_v15
  fn_part1 (F := F) main_arg5 main_arg6 main_arg7 main_arg8 main_arg9 main_arg10 main_v13 main_v16
-- ==== Kernel.lean ====
abbrev S200000x64 : Shape := ⟨2, ![200000, 64]⟩
abbrev S2x1600000 : Shape := ⟨2, ![2, 1600000]⟩
abbrev S128x63 : Shape := ⟨2, ![128, 63]⟩
abbrev S128 : Shape := ⟨1, ![128]⟩
abbrev S128x129 : Shape := ⟨2, ![128, 129]⟩
abbrev S128x128 : Shape := ⟨2, ![128, 128]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S200000x1 : Shape := ⟨2, ![200000, 1]⟩
abbrev S200000 : Shape := ⟨1, ![200000]⟩
abbrev S200000x63 : Shape := ⟨2, ![200000, 63]⟩
abbrev S_ : Shape := ⟨0, ![]⟩
abbrev S1600000x1 : Shape := ⟨2, ![1600000, 1]⟩
abbrev S200000x129 : Shape := ⟨2, ![200000, 129]⟩
abbrev S2000x64 : Shape := ⟨2, ![2000, 64]⟩
abbrev S2000x129 : Shape := ⟨2, ![2000, 129]⟩
abbrev S2000x63 : Shape := ⟨2, ![2000, 63]⟩
abbrev S2000x1 : Shape := ⟨2, ![2000, 1]⟩
abbrev S63x128 : Shape := ⟨2, ![63, 128]⟩
abbrev S2000x128 : Shape := ⟨2, ![2000, 128]⟩
abbrev S1600000x129 : Shape := ⟨2, ![1600000, 129]⟩
abbrev S129x128 : Shape := ⟨2, ![129, 128]⟩
abbrev S128x1 : Shape := ⟨2, ![128, 1]⟩
abbrev S1x1 : Shape := ⟨2, ![1, 1]⟩

abbrev nBuf : Space → Nat
  | .hbm => 64
  | .vmem => 19
  | .smem => 0
  | _ => 0

abbrev bufTy : (tb : Table) → Fin (tcTables nBuf tb) → BufTy
  | .hbm, ⟨0, _⟩ => ⟨S200000x64, .f32⟩
  | .hbm, ⟨1, _⟩ => ⟨S2x1600000, .i32⟩
  | .hbm, ⟨2, _⟩ => ⟨S128x63, .f32⟩
  | .hbm, ⟨3, _⟩ => ⟨S128, .f32⟩
  | .hbm, ⟨4, _⟩ => ⟨S128x129, .f32⟩
  | .hbm, ⟨5, _⟩ => ⟨S128, .f32⟩
  | .hbm, ⟨6, _⟩ => ⟨S128x129, .f32⟩
  | .hbm, ⟨7, _⟩ => ⟨S128x128, .f32⟩
  | .hbm, ⟨8, _⟩ => ⟨S128, .f32⟩
  | .hbm, ⟨9, _⟩ => ⟨S1x128, .f32⟩
  | .hbm, ⟨10, _⟩ => ⟨S1, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S200000x1, .f32⟩
  | .hbm, ⟨16, _⟩ => ⟨S200000, .f32⟩
  | .hbm, ⟨17, _⟩ => ⟨S200000x63, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S200000, .f32⟩
  | .hbm, ⟨31, _⟩ => ⟨S1600000x1, .i32⟩
  | .hbm, ⟨32, _⟩ => ⟨S200000, .f32⟩
  | .hbm, ⟨33, _⟩ => ⟨S_, .f32⟩
  | .hbm, ⟨34, _⟩ => ⟨S200000, .f32⟩
  | .hbm, ⟨35, _⟩ => ⟨S1600000x1, .i32⟩
  | .hbm, ⟨36, _⟩ => ⟨S200000, .f32⟩
  | .hbm, ⟨37, _⟩ => ⟨S_, .f32⟩
  | .hbm, ⟨38, _⟩ => ⟨S200000, .f32⟩
  | .hbm, ⟨39, _⟩ => ⟨S200000, .f32⟩
  | .hbm, ⟨40, _⟩ => ⟨S200000, .f32⟩
  | .hbm, ⟨41, _⟩ => ⟨S200000x1, .f32⟩
  | .hbm, ⟨42, _⟩ => ⟨S200000x64, .f32⟩
  | .hbm, ⟨43, _⟩ => ⟨S200000x129, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x129, .f32⟩
  | .hbm, ⟨53, _⟩ => ⟨S_, .f32⟩
  | .hbm, ⟨54, _⟩ => ⟨S200000x129, .f32⟩
  | .hbm, ⟨55, _⟩ => ⟨S1600000x1, .i32⟩
  | .hbm, ⟨56, _⟩ => ⟨S200000x129, .f32⟩
  | .hbm, ⟨57, _⟩ => ⟨S_, .f32⟩
  | .hbm, ⟨58, _⟩ => ⟨S200000, .f32⟩
  | .hbm, ⟨59, _⟩ => ⟨S200000, .f32⟩
  | .hbm, ⟨60, _⟩ => ⟨S200000x1, .f32⟩
  | .hbm, ⟨61, _⟩ => ⟨S200000x129, .f32⟩
  | .hbm, ⟨62, _⟩ => ⟨S200000x129, .f32⟩
  | .hbm, ⟨63, _⟩ => ⟨S200000x1, .f32⟩
  | .local _ .vmem, ⟨0, _⟩ => ⟨S2000x64, .f32⟩
  | .local _ .vmem, ⟨1, _⟩ => ⟨S2000x64, .f32⟩
  | .local _ .vmem, ⟨2, _⟩ => ⟨S128x63, .f32⟩
  | .local _ .vmem, ⟨3, _⟩ => ⟨S128, .f32⟩
  | .local _ .vmem, ⟨4, _⟩ => ⟨S2000x129, .f32⟩
  | .local _ .vmem, ⟨5, _⟩ => ⟨S2000x129, .f32⟩
  | .local _ .vmem, ⟨6, _⟩ => ⟨S2000x129, .f32⟩
  | .local _ .vmem, ⟨7, _⟩ => ⟨S2000x129, .f32⟩
  | .local _ .vmem, ⟨8, _⟩ => ⟨S2000x129, .f32⟩
  | .local _ .vmem, ⟨9, _⟩ => ⟨S2000x129, .f32⟩
  | .local _ .vmem, ⟨10, _⟩ => ⟨S128x129, .f32⟩
  | .local _ .vmem, ⟨11, _⟩ => ⟨S128, .f32⟩
  | .local _ .vmem, ⟨12, _⟩ => ⟨S128x129, .f32⟩
  | .local _ .vmem, ⟨13, _⟩ => ⟨S128x128, .f32⟩
  | .local _ .vmem, ⟨14, _⟩ => ⟨S128, .f32⟩
  | .local _ .vmem, ⟨15, _⟩ => ⟨S1x128, .f32⟩
  | .local _ .vmem, ⟨16, _⟩ => ⟨S1, .f32⟩
  | .local _ .vmem, ⟨17, _⟩ => ⟨S2000x1, .f32⟩
  | .local _ .vmem, ⟨18, _⟩ => ⟨S2000x1, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_4 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg9_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem9_1 : DmaSem sig := 18

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x63 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x129 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x129 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x129 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x129 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x129 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S200000x64_S200000x1_0_0 : S200000x64.Slices ![0, 0] S200000x1
  shapeCasts_S200000x1_S200000 : S200000x1.ShapeCasts S200000
  slices_S200000x64_S200000x63_0_1 : S200000x64.Slices ![0, 1] S200000x63
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S200000 : S_.BroadcastsInDim S200000 (![] : Fin 0 → Fin S200000.rank)
  bcast_S200000_S200000x1_0 : S200000.BroadcastsInDim S200000x1 (![0] : Fin 1 → Fin S200000x1.rank)
  concatenates_S200000x63_S200000x1_S200000x64_d1 : Shape.Concatenates [S200000x63, S200000x1] S200000x64 1
  inb_S2000x64_S2000x63_0_0 : ∀ a, (![0, 0] : Fin 2 → Nat) a + S2000x63.size a ≤ S2000x64.size a
  h_S2000x63 : 0 < S2000x63.numel
  shapeCasts_S2000x63_S2000x63 : S2000x63.ShapeCasts S2000x63
  inb_S2000x64_S2000x1_0_63 : ∀ a, (![0, 63] : Fin 2 → Nat) a + S2000x1.size a ≤ S2000x64.size a
  h_S2000x1 : 0 < S2000x1.numel
  shapeCasts_S2000x1_S2000x1 : S2000x1.ShapeCasts S2000x1
  bitsLt_bf16_f32 : FTy.bits .bf16 < FTy.bits .f32
  inb_S128x63_S128x63_0_0 : ∀ a, (![0, 0] : Fin 2 → Nat) a + S128x63.size a ≤ S128x63.size a
  h_S128x63 : 0 < S128x63.numel
  inb_S128_S128_0 : ∀ a, (![0] : Fin 1 → Nat) a + S128.size a ≤ S128.size a
  h_S128 : 0 < S128.numel
  transposes_S128x63_p1_0_S63x128 : S128x63.Transposes [1, 0] S63x128
  shapeCasts_S128_S1x128 : S128.ShapeCasts S1x128
  broadcasts_S1x128_S2000x128 : S1x128.Broadcasts S2000x128
  inb_S2000x129_S2000x128_0_0 : ∀ a, (![0, 0] : Fin 2 → Nat) a + S2000x128.size a ≤ S2000x129.size a
  h_S2000x128 : 0 < S2000x128.numel
  inb_S2000x129_S2000x1_0_128 : ∀ a, (![0, 128] : Fin 2 → Nat) a + S2000x1.size a ≤ S2000x129.size a
  bcast_S_S200000x129 : S_.BroadcastsInDim S200000x129 (![] : Fin 0 → Fin S200000x129.rank)
  bcast_S200000x1_S200000x129_0_1 : S200000x1.BroadcastsInDim S200000x129 (![0, 1] : Fin 2 → Fin S200000x129.rank)
  inb_S2000x129_S2000x129_0_0 : ∀ a, (![0, 0] : Fin 2 → Nat) a + S2000x129.size a ≤ S2000x129.size a
  h_S2000x129 : 0 < S2000x129.numel
  shapeCasts_S2000x129_S2000x129 : S2000x129.ShapeCasts S2000x129
  inb_S128x129_S128x129_0_0 : ∀ a, (![0, 0] : Fin 2 → Nat) a + S128x129.size a ≤ S128x129.size a
  h_S128x129 : 0 < S128x129.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  inb_S1_S1_0 : ∀ a, (![0] : Fin 1 → Nat) a + S1.size a ≤ S1.size a
  h_S1 : 0 < S1.numel
  transposes_S128x129_p1_0_S129x128 : S128x129.Transposes [1, 0] S129x128
  transposes_S128x128_p1_0_S128x128 : S128x128.Transposes [1, 0] S128x128
  transposes_S1x128_p1_0_S128x1 : S1x128.Transposes [1, 0] S128x1
  shapeCasts_S1_S1x1 : S1.ShapeCasts S1x1
  broadcasts_S1x1_S2000x1 : S1x1.Broadcasts S2000x1
  inb_S2000x1_S2000x1_0_0 : ∀ a, (![0, 0] : Fin 2 → Nat) a + S2000x1.size a ≤ S2000x1.size a
  gather_S200000_S1600000x1_S1600000_n_0_n_n_0_1_1_wf : GatherDims.WF S200000 S1600000x1 S1600000 [] [0] [] [0] [] 1 ![1]
  scatter_S200000_S1600000x1_S1600000_n_0_0_1_wf : ScatterDims.WF S200000 S1600000x1 S1600000 [] [0] [0] 1
  dot_S2000x63_S63x128_S2000x128_1_0_0_1_n_n_wf : DotDims.WF S2000x63 S63x128 S2000x128 [1] [0] [0] [1] [] []
  gather_S200000x129_S1600000x1_S1600000x129_1_0_n_n_0_1_1129_wf : GatherDims.WF S200000x129 S1600000x1 S1600000x129 [1] [0] [] [0] [] 1 ![1, 129]
  scatter_S200000x129_S1600000x1_S1600000x129_1_0_0_1_wf : ScatterDims.WF S200000x129 S1600000x1 S1600000x129 [1] [0] [0] 1
  dot_S2000x129_S129x128_S2000x128_1_0_0_1_n_n_wf : DotDims.WF S2000x129 S129x128 S2000x128 [1] [0] [0] [1] [] []
  dot_S2000x128_S128x128_S2000x128_1_0_0_1_n_n_wf : DotDims.WF S2000x128 S128x128 S2000x128 [1] [0] [0] [1] [] []
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S200000x64.size a
  hwx0_0 : ∀ i : grid0.Coords, EltTy.bits .f32 = 32 ∨ (Rect.block (s := S200000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x63.size a ≤ S128x63.size a
  hwx0_1 : ∀ i : grid0.Coords, EltTy.bits .f32 = 32 ∨ (Rect.block (s := S128x63) S128x63.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x129.size a ≤ S200000x129.size a
  hwx0_3 : ∀ i : grid0.Coords, EltTy.bits .f32 = 32 ∨ (Rect.block (s := S200000x129) S2000x129.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x129.size a ≤ S200000x129.size a
  hwx1_0 : ∀ i : grid1.Coords, EltTy.bits .f32 = 32 ∨ (Rect.block (s := S200000x129) S2000x129.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x129.size a ≤ S200000x129.size a
  hwx1_1 : ∀ i : grid1.Coords, EltTy.bits .f32 = 32 ∨ (Rect.block (s := S200000x129) S2000x129.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x129.size a ≤ S128x129.size a
  hwx1_2 : ∀ i : grid1.Coords, EltTy.bits .f32 = 32 ∨ (Rect.block (s := S128x129) S128x129.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x129.size a ≤ S128x129.size a
  hwx1_4 : ∀ i : grid1.Coords, EltTy.bits .f32 = 32 ∨ (Rect.block (s := S128x129) S128x129.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1.size a ≤ S1.size a
  hwx1_8 : ∀ i : grid1.Coords, EltTy.bits .f32 = 32 ∨ (Rect.block (s := S1) S1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x1.size a ≤ S200000x1.size a
  hwx1_9 : ∀ i : grid1.Coords, EltTy.bits .f32 = 32 ∨ (Rect.block (s := S200000x1) S2000x1.size (cc1_transform_9 i) (hinb1_9 i)).WholeWords (EltTy.packing .f32)

variable [Facts₀]

def gather_S200000_S1600000x1_S1600000_n_0_n_n_0_1_1 : GatherDims S200000 S1600000x1 S1600000 where
  offsetDims := []
  collapsedSliceDims := [0]
  operandBatchingDims := []
  startIndicesBatchingDims := []
  startIndexMap := [0]
  indexVectorDim := 1
  sliceSizes := ![1]
  wf := gather_S200000_S1600000x1_S1600000_n_0_n_n_0_1_1_wf
def scatter_S200000_S1600000x1_S1600000_n_0_0_1 : ScatterDims S200000 S1600000x1 S1600000 where
  updateWindowDims := []
  insertedWindowDims := [0]
  scatterDimsToOperandDims := [0]
  indexVectorDim := 1
  wf := scatter_S200000_S1600000x1_S1600000_n_0_0_1_wf
def dot_S2000x63_S63x128_S2000x128_1_0_0_1_n_n : DotDims S2000x63 S63x128 S2000x128 where
  lhsContracting := [1]
  rhsContracting := [0]
  lhsNonContracting := [0]
  rhsNonContracting := [1]
  lhsBatch := []
  rhsBatch := []
  wf := dot_S2000x63_S63x128_S2000x128_1_0_0_1_n_n_wf
def gather_S200000x129_S1600000x1_S1600000x129_1_0_n_n_0_1_1129 : GatherDims S200000x129 S1600000x1 S1600000x129 where
  offsetDims := [1]
  collapsedSliceDims := [0]
  operandBatchingDims := []
  startIndicesBatchingDims := []
  startIndexMap := [0]
  indexVectorDim := 1
  sliceSizes := ![1, 129]
  wf := gather_S200000x129_S1600000x1_S1600000x129_1_0_n_n_0_1_1129_wf
def scatter_S200000x129_S1600000x1_S1600000x129_1_0_0_1 : ScatterDims S200000x129 S1600000x1 S1600000x129 where
  updateWindowDims := [1]
  insertedWindowDims := [0]
  scatterDimsToOperandDims := [0]
  indexVectorDim := 1
  wf := scatter_S200000x129_S1600000x1_S1600000x129_1_0_0_1_wf
def dot_S2000x129_S129x128_S2000x128_1_0_0_1_n_n : DotDims S2000x129 S129x128 S2000x128 where
  lhsContracting := [1]
  rhsContracting := [0]
  lhsNonContracting := [0]
  rhsNonContracting := [1]
  lhsBatch := []
  rhsBatch := []
  wf := dot_S2000x129_S129x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_v25) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x63.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S2000x129.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v41) S2000x129.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x129.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x129.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x129.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg10) S1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v42) S2000x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S200000x64 : Shape := ⟨2, ![200000, 64]⟩
abbrev S2x1600000 : Shape := ⟨2, ![2, 1600000]⟩
abbrev S128x63 : Shape := ⟨2, ![128, 63]⟩
abbrev S128 : Shape := ⟨1, ![128]⟩
abbrev S128x129 : Shape := ⟨2, ![128, 129]⟩
abbrev S128x128 : Shape := ⟨2, ![128, 128]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S200000x63 : Shape := ⟨2, ![200000, 63]⟩
abbrev S63x128 : Shape := ⟨2, ![63, 128]⟩
abbrev S200000x128 : Shape := ⟨2, ![200000, 128]⟩
abbrev S_ : Shape := ⟨0, ![]⟩
abbrev S1600000x1 : Shape := ⟨2, ![1600000, 1]⟩
abbrev S1600000x2 : Shape := ⟨2, ![1600000, 2]⟩
abbrev S200000 : Shape := ⟨1, ![200000]⟩
abbrev S200000x1 : Shape := ⟨2, ![200000, 1]⟩
abbrev S200000x129 : Shape := ⟨2, ![200000, 129]⟩
abbrev S1600000x129 : Shape := ⟨2, ![1600000, 129]⟩
abbrev S129x128 : Shape := ⟨2, ![129, 128]⟩
abbrev S128x1 : Shape := ⟨2, ![128, 1]⟩
abbrev S1x1 : Shape := ⟨2, ![1, 1]⟩

abbrev nBuf : Space → Nat
  | .hbm => 92
  | .vmem => 0
  | .smem => 0
  | _ => 0

abbrev bufTy : (tb : Table) → Fin (tcTables nBuf tb) → BufTy
  | .hbm, ⟨0, _⟩ => ⟨S200000x64, .f32⟩
  | .hbm, ⟨1, _⟩ => ⟨S2x1600000, .i32⟩
  | .hbm, ⟨2, _⟩ => ⟨S128x63, .f32⟩
  | .hbm, ⟨3, _⟩ => ⟨S128, .f32⟩
  | .hbm, ⟨4, _⟩ => ⟨S128x129, .f32⟩
  | .hbm, ⟨5, _⟩ => ⟨S128, .f32⟩
  | .hbm, ⟨6, _⟩ => ⟨S128x129, .f32⟩
  | .hbm, ⟨7, _⟩ => ⟨S128x128, .f32⟩
  | .hbm, ⟨8, _⟩ => ⟨S128, .f32⟩
  | .hbm, ⟨9, _⟩ => ⟨S1x128, .f32⟩
  | .hbm, ⟨10, _⟩ => ⟨S1, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S200000x63, .f32⟩
  | .hbm, ⟨16, _⟩ => ⟨S63x128, .f32⟩
  | .hbm, ⟨17, _⟩ => ⟨S200000x128, .f32⟩
  | .hbm, ⟨18, _⟩ => ⟨S1x128, .f32⟩
  | .hbm, ⟨19, _⟩ => ⟨S200000x128, .f32⟩
  | .hbm, ⟨20, _⟩ => ⟨S200000x128, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x1, .i32⟩
  | .hbm, ⟨33, _⟩ => ⟨S1600000x2, .i32⟩
  | .hbm, ⟨34, _⟩ => ⟨S1600000, .f32⟩
  | .hbm, ⟨35, _⟩ => ⟨S_, .f32⟩
  | .hbm, ⟨36, _⟩ => ⟨S1600000, .f32⟩
  | .hbm, ⟨37, _⟩ => ⟨S_, .f32⟩
  | .hbm, ⟨38, _⟩ => ⟨S200000, .f32⟩
  | .hbm, ⟨39, _⟩ => ⟨S1600000x1, .i32⟩
  | .hbm, ⟨40, _⟩ => ⟨S200000, .f32⟩
  | .hbm, ⟨41, _⟩ => ⟨S_, .f32⟩
  | .hbm, ⟨42, _⟩ => ⟨S200000, .f32⟩
  | .hbm, ⟨43, _⟩ => ⟨S1600000x1, .i32⟩
  | .hbm, ⟨44, _⟩ => ⟨S200000, .f32⟩
  | .hbm, ⟨45, _⟩ => ⟨S_, .f32⟩
  | .hbm, ⟨46, _⟩ => ⟨S200000, .f32⟩
  | .hbm, ⟨47, _⟩ => ⟨S200000, .f32⟩
  | .hbm, ⟨48, _⟩ => ⟨S200000, .f32⟩
  | .hbm, ⟨49, _⟩ => ⟨S200000x128, .f32⟩
  | .hbm, ⟨50, _⟩ => ⟨S200000x1, .f32⟩
  | .hbm, ⟨51, _⟩ => ⟨S200000x129, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x129, .f32⟩
  | .hbm, ⟨61, _⟩ => ⟨S_, .f32⟩
  | .hbm, ⟨62, _⟩ => ⟨S200000x129, .f32⟩
  | .hbm, ⟨63, _⟩ => ⟨S1600000x1, .i32⟩
  | .hbm, ⟨64, _⟩ => ⟨S200000x129, .f32⟩
  | .hbm, ⟨65, _⟩ => ⟨S_, .f32⟩
  | .hbm, ⟨66, _⟩ => ⟨S200000, .f32⟩
  | .hbm, ⟨67, _⟩ => ⟨S200000, .f32⟩
  | .hbm, ⟨68, _⟩ => ⟨S200000x1, .f32⟩
  | .hbm, ⟨69, _⟩ => ⟨S200000x129, .f32⟩
  | .hbm, ⟨70, _⟩ => ⟨S200000x129, .f32⟩
  | .hbm, ⟨71, _⟩ => ⟨S129x128, .f32⟩
  | .hbm, ⟨72, _⟩ => ⟨S200000x128, .f32⟩
  | .hbm, ⟨73, _⟩ => ⟨S1x128, .f32⟩
  | .hbm, ⟨74, _⟩ => ⟨S200000x128, .f32⟩
  | .hbm, ⟨75, _⟩ => ⟨S200000x128, .f32⟩
  | .hbm, ⟨76, _⟩ => ⟨S129x128, .f32⟩
  | .hbm, ⟨77, _⟩ => ⟨S200000x128, .f32⟩
  | .hbm, ⟨78, _⟩ => ⟨S200000x128, .f32⟩
  | .hbm, ⟨79, _⟩ => ⟨S128x128, .f32⟩
  | .hbm, ⟨80, _⟩ => ⟨S200000x128, .f32⟩
  | .hbm, ⟨81, _⟩ => ⟨S1x128, .f32⟩
  | .hbm, ⟨82, _⟩ => ⟨S200000x128, .f32⟩
  | .hbm, ⟨83, _⟩ => ⟨S200000x128, .f32⟩
  | .hbm, ⟨84, _⟩ => ⟨S_, .f32⟩
  | .hbm, ⟨85, _⟩ => ⟨S200000x128, .f32⟩
  | .hbm, ⟨86, _⟩ => ⟨S200000x128, .f32⟩
  | .hbm, ⟨87, _⟩ => ⟨S128x1, .f32⟩
  | .hbm, ⟨88, _⟩ => ⟨S200000x1, .f32⟩
  | .hbm, ⟨89, _⟩ => ⟨S1x1, .f32⟩
  | .hbm, ⟨90, _⟩ => ⟨S200000x1, .f32⟩
  | .hbm, ⟨91, _⟩ => ⟨S200000x1, .f32⟩
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_5 : Ref sig .tc := ⟨.hbm, 52, rfl⟩
abbrev main_v34 : Ref sig .tc := ⟨.hbm, 53, rfl⟩
abbrev main_v35 : Ref sig .tc := ⟨.hbm, 54, rfl⟩
abbrev main_c_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_call0_cst : Ref sig .tc := ⟨.hbm, 84, rfl⟩
abbrev main_call0_v0 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S200000x64_S200000x63_0_1 : S200000x64.Slices ![0, 1] S200000x63
  transposes_S128x63_S63x128_1_0 : S128x63.Transposes [1, 0] S63x128
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x1_S1600000x1_S1600000x2_d1 : Shape.Concatenates [S1600000x1, S1600000x1] S1600000x2 1
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x1_S200000x129_d1 : Shape.Concatenates [S200000x128, S200000x1] S200000x129 1
  bcast_S_S200000x129 : S_.BroadcastsInDim S200000x129 (![] : Fin 0 → Fin S200000x129.rank)
  bcast_S200000x1_S200000x129_0_1 : S200000x1.BroadcastsInDim S200000x129 (![0, 1] : Fin 2 → Fin S200000x129.rank)
  transposes_S128x129_S129x128_1_0 : S128x129.Transposes [1, 0] S129x128
  transposes_S128x128_S128x128_1_0 : S128x128.Transposes [1, 0] S128x128
  bcast_S_S200000x128 : S_.BroadcastsInDim S200000x128 (![] : Fin 0 → Fin S200000x128.rank)
  transposes_S1x128_S128x1_1_0 : S1x128.Transposes [1, 0] S128x1
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  dot_S200000x63_S63x128_S200000x128_1_0_0_1_n_n_wf : DotDims.WF S200000x63 S63x128 S200000x128 [1] [0] [0] [1] [] []
  gather_S200000x64_S1600000x2_S1600000_n_01_n_n_01_1_11_wf : GatherDims.WF S200000x64 S1600000x2 S1600000 [] [0, 1] [] [0, 1] [] 1 ![1, 1]
  scatter_S200000_S1600000x1_S1600000_n_0_0_1_wf : ScatterDims.WF S200000 S1600000x1 S1600000 [] [0] [0] 1
  gather_S200000x129_S1600000x1_S1600000x129_1_0_n_n_0_1_1129_wf : GatherDims.WF S200000x129 S1600000x1 S1600000x129 [1] [0] [] [0] [] 1 ![1, 129]
  scatter_S200000x129_S1600000x1_S1600000x129_1_0_0_1_wf : ScatterDims.WF S200000x129 S1600000x1 S1600000x129 [1] [0] [0] 1
  dot_S200000x129_S129x128_S200000x128_1_0_0_1_n_n_wf : DotDims.WF S200000x129 S129x128 S200000x128 [1] [0] [0] [1] [] []
  dot_S200000x128_S128x128_S200000x128_1_0_0_1_n_n_wf : DotDims.WF S200000x128 S128x128 S200000x128 [1] [0] [0] [1] [] []
  dot_S200000x128_S128x1_S200000x1_1_0_0_1_n_n_wf : DotDims.WF S200000x128 S128x1 S200000x1 [1] [0] [0] [1] [] []

variable [Facts₀]

def dot_S200000x63_S63x128_S200000x128_1_0_0_1_n_n : DotDims S200000x63 S63x128 S200000x128 where
  lhsContracting := [1]
  rhsContracting := [0]
  lhsNonContracting := [0]
  rhsNonContracting := [1]
  lhsBatch := []
  rhsBatch := []
  wf := dot_S200000x63_S63x128_S200000x128_1_0_0_1_n_n_wf
def gather_S200000x64_S1600000x2_S1600000_n_01_n_n_01_1_11 : GatherDims S200000x64 S1600000x2 S1600000 where
  offsetDims := []
  collapsedSliceDims := [0, 1]
  operandBatchingDims := []
  startIndicesBatchingDims := []
  startIndexMap := [0, 1]
  indexVectorDim := 1
  sliceSizes := ![1, 1]
  wf := gather_S200000x64_S1600000x2_S1600000_n_01_n_n_01_1_11_wf
def scatter_S200000_S1600000x1_S1600000_n_0_0_1 : ScatterDims S200000 S1600000x1 S1600000 where
  updateWindowDims := []
  insertedWindowDims := [0]
  scatterDimsToOperandDims := [0]
  indexVectorDim := 1
  wf := scatter_S200000_S1600000x1_S1600000_n_0_0_1_wf
def gather_S200000x129_S1600000x1_S1600000x129_1_0_n_n_0_1_1129 : GatherDims S200000x129 S1600000x1 S1600000x129 where
  offsetDims := [1]
  collapsedSliceDims := [0]
  operandBatchingDims := []
  startIndicesBatchingDims := []
  startIndexMap := [0]
  indexVectorDim := 1
  sliceSizes := ![1, 129]
  wf := gather_S200000x129_S1600000x1_S1600000x129_1_0_n_n_0_1_1129_wf
def scatter_S200000x129_S1600000x1_S1600000x129_1_0_0_1 : ScatterDims S200000x129 S1600000x1 S1600000x129 where
  updateWindowDims := [1]
  insertedWindowDims := [0]
  scatterDimsToOperandDims := [0]
  indexVectorDim := 1
  wf := scatter_S200000x129_S1600000x1_S1600000x129_1_0_0_1_wf
def dot_S200000x129_S129x128_S200000x128_1_0_0_1_n_n : DotDims S200000x129 S129x128 S200000x128 where
  lhsContracting := [1]
  rhsContracting := [0]
  lhsNonContracting := [0]
  rhsNonContracting := [1]
  lhsBatch := []
  rhsBatch := []
  wf := dot_S200000x129_S129x128_S200000x128_1_0_0_1_n_n_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def dot_S200000x128_S128x1_S200000x1_1_0_0_1_n_n : DotDims S200000x128 S128x1 S200000x1 where
  lhsContracting := [1]
  rhsContracting := [0]
  lhsNonContracting := [0]
  rhsNonContracting := [1]
  lhsBatch := []
  rhsBatch := []
  wf := dot_S200000x128_S128x1_S200000x1_1_0_0_1_n_n_wf

class Facts : Prop extends Facts₀ where

variable [Facts]
-- ==== Proof.KRun.lean ====
/-
  The kernel program's run with its result named. From any memory with zero counters every weakly fair execution of
  the program ends, nothing faulting, with the result array holding what the second stage's write-backs leave and the
  eleven argument arrays as launched. The run is the one the generated frame makes — the two host stretches and the
  two pipelined stages as four segments, the buffer contents folded through them —; here the final state's fact
  "every unscoped buffer holds the last fold's contents" is read at the result's buffer as well as at the arguments'.
-/
import proofs.«133648_j59365037965463_1_alg».proof.Proof.Gen.KernelIdeal.Frame

set_option maxRecDepth 16384

noncomputable section

namespace Cert.KernelIdeal.NamedRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result's buffer is the second stage's output window's array, so after the run it holds what that stage's
    write-backs leave: the fold's last step read at that array. -/
theorem W4_result (c : Dev nD) :
    W4 m ρ c (Proc.devRef .tc main_v42) = (dat1 (V3 m ρ) c).arrAt 9 cfg1.N :=
  W4_arr m ρ c 9

-- the launch theorem's implicit arguments are found by unifying its conclusion with this one, which takes unfolding
-- plain definitions in a metavariable's type
set_option backward.isDefEq.respectTransparency.types false in
/-- Every weakly fair execution of the program ends with the result at the last fold's contents and the arguments as
    launched. -/
theorem run_named : θ_run defs (onTc (τ := τ) (main (F := F))) ⟨m, fun _ => 0, ρ⟩ (fun r => ∀ c : Dev nD,
      r.2.mem ((c.tc : Thread nD τ).loc main_v42) = W4 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v42 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.NamedRun

end
-- ==== Proof.HostChain.lean ====
/-
  The host operations around the two stages, as functions of the arrays they read.

  An edge list `ei : [2, E]` holds a source row and a destination row of node numbers. A source number below zero is
  taken as counted from the end (the node count is added to it); as a one-column table the sources are where a gather
  starts, and the destinations where a scatter adds. The in-degree `cnt` of a node is the sum of ones scattered to the
  destinations; a mean over in-neighbours is a scattered sum divided by `max cnt 1`.

  * `pmeanOf price ei`: the mean over in-neighbours of a per-edge value `price`.
  * `priceK x ei`: the per-edge value the kernel program uses, column 0 of `x` as a vector, gathered at the sources.
  * `xfpK x ei`: the first stage's input, columns 1..63 of `x` joined with the mean price as a last column.
  * `aggOf xi ei`: the rows of `xi` gathered at the sources, scattered and summed at the destinations, each row
    divided by `max cnt 1`: the in-neighbour mean of `xi`. It is carried as one function and never opened: both
    programs apply it.
-/
import proofs.«133648_j59365037965463_1_alg».proof.KernelIdeal
import proofs.«133648_j59365037965463_1_alg».proof.Proof.Gen.KernelIdeal

noncomputable section

namespace Cert.KernelIdeal.HostChain

open Cert.KernelIdeal Cert.KernelIdeal.Facts₀ Idealize.ShloMosaic

variable {F : FTy → Type} [FloatOps F]

/-- The edge list's source row as a vector. -/
def srcVec (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000

/-- The edge list's destination row as a vector. -/
def dstVec (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000

/-- A vector of node numbers with those below zero counted from the end. -/
def wrapNeg (v : (⟨S1600000, .i32⟩ : BufTy).Contents (Elt F)) : (⟨S1600000, .i32⟩ : BufTy).Contents (Elt F) :=
  select (cmpi .slt v (broadcastInDim S1600000 ![] bcast_S_S1600000 (constantI S_ 32 0#32)))
    (addi v (broadcastInDim S1600000 ![] bcast_S_S1600000 (constantI S_ 32 200000#32))) v

/-- A vector of node numbers as a one-column table. -/
def asCol (v : (⟨S1600000, .i32⟩ : BufTy).Contents (Elt F)) : (⟨S1600000x1, .i32⟩ : BufTy).Contents (Elt F) :=
  broadcastInDim S1600000x1 ![0] bcast_S1600000_S1600000x1_0 v

/-- Where a gather over the edges starts: the sources, wrapped, as a column. -/
def srcCol (ei : (⟨S2x1600000, .i32⟩ : BufTy).Contents (Elt F)) : (⟨S1600000x1, .i32⟩ : BufTy).Contents (Elt F) :=
  asCol (wrapNeg (srcVec ei))

/-- Where a scatter over the edges adds: the destinations as a column. -/
def dstCol (ei : (⟨S2x1600000, .i32⟩ : BufTy).Contents (Elt F)) : (⟨S1600000x1, .i32⟩ : BufTy).Contents (Elt F) :=
  asCol (dstVec ei)

/-- The in-degree of every node: ones summed at the destinations. -/
def cntOfDst (d : (⟨S1600000, .i32⟩ : BufTy).Contents (Elt F)) : (⟨S200000, .f32⟩ : BufTy).Contents (Elt F) :=
  Host.scatterAdd scatter_S200000_S1600000x1_S1600000_n_0_0_1
    (broadcastInDim S200000 ![] bcast_S_S200000 (constant S_ .f32 0x00000000#32)) (asCol d)
    (broadcastInDim S1600000 ![] bcast_S_S1600000 (constant S_ .f32 0x3F800000#32))

/-- The divisor of a mean over in-neighbours: the in-degree, or one where it is less. -/
def denomOfCnt (cnt : (⟨S200000, .f32⟩ : BufTy).Contents (Elt F)) : (⟨S200000, .f32⟩ : BufTy).Contents (Elt F) :=
  maximumf cnt (broadcastInDim S200000 ![] bcast_S_S200000 (constant S_ .f32 0x3F800000#32))

/-- The mean over in-neighbours of a per-edge value. -/
def pmeanOf (price : (⟨S1600000, .f32⟩ : BufTy).Contents (Elt F)) (ei : (⟨S2x1600000, .i32⟩ : BufTy).Contents (Elt F)) :
    (⟨S200000, .f32⟩ : BufTy).Contents (Elt F) :=
  Host.divf
    (Host.scatterAdd scatter_S200000_S1600000x1_S1600000_n_0_0_1
      (broadcastInDim S200000 ![] bcast_S_S200000 (constant S_ .f32 0x00000000#32)) (dstCol ei) price)
    (denomOfCnt (cntOfDst (dstVec ei)))

/-- Column 0 of `x` as a vector. -/
def col0 (x : (⟨S200000x64, .f32⟩ : BufTy).Contents (Elt F)) : (⟨S200000, .f32⟩ : BufTy).Contents (Elt F) :=
  shapeCast _ (extractStridedSlice S200000x1 ![0, 0] x slices_S200000x64_S200000x1_0_0) shapeCasts_S200000x1_S200000

/-- The per-edge price as the kernel program takes it: column 0 of `x`, as a vector, at each edge's source. -/
def priceK (x : (⟨S200000x64, .f32⟩ : BufTy).Contents (Elt F)) (ei : (⟨S2x1600000, .i32⟩ : BufTy).Contents (Elt F)) :
    (⟨S1600000, .f32⟩ : BufTy).Contents (Elt F) :=
  Host.gather gather_S200000_S1600000x1_S1600000_n_0_n_n_0_1_1 (col0 x) (srcCol ei)

/-- Columns 1..63 of `x` joined with a vector as a last column. -/
def joinPrice (x : (⟨S200000x64, .f32⟩ : BufTy).Contents (Elt F)) (pm : (⟨S200000, .f32⟩ : BufTy).Contents (Elt F)) :
    (⟨S200000x64, .f32⟩ : BufTy).Contents (Elt F) :=
  concatenate S200000x64 1
    [⟨S200000x63, extractStridedSlice S200000x63 ![0, 1] x slices_S200000x64_S200000x63_0_1⟩,
     ⟨S200000x1, broadcastInDim S200000x1 ![0] bcast_S200000_S200000x1_0 pm⟩]
    concatenates_S200000x63_S200000x1_S200000x64_d1

/-- The first stage's input: the features of `x` joined with the mean price of each node's in-neighbours. -/
def xfpK (x : (⟨S200000x64, .f32⟩ : BufTy).Contents (Elt F)) (ei : (⟨S2x1600000, .i32⟩ : BufTy).Contents (Elt F)) :
    (⟨S200000x64, .f32⟩ : BufTy).Contents (Elt F) :=
  joinPrice x (pmeanOf (priceK x ei) ei)

/-- The in-neighbour mean of the rows of `xi`, from the source vector, the destination vector and the in-degree as
    the second host stretch finds them. -/
def aggFrom (xi : (⟨S200000x129, .f32⟩ : BufTy).Contents (Elt F)) (s d : (⟨S1600000, .i32⟩ : BufTy).Contents (Elt F))
    (cnt : (⟨S200000, .f32⟩ : BufTy).Contents (Elt F)) : (⟨S200000x129, .f32⟩ : BufTy).Contents (Elt F) :=
  Host.divf
    (Host.scatterAdd scatter_S200000x129_S1600000x1_S1600000x129_1_0_0_1
      (broadcastInDim S200000x129 ![] bcast_S_S200000x129 (constant S_ .f32 0x00000000#32)) (asCol d)
      (Host.gather gather_S200000x129_S1600000x1_S1600000x129_1_0_n_n_0_1_1129 xi (asCol (wrapNeg s))))
    (broadcastInDim S200000x129 ![0, 1] bcast_S200000x1_S200000x129_0_1
      (broadcastInDim S200000x1 ![0] bcast_S200000_S200000x1_0 (denomOfCnt cnt)))

/-- The in-neighbour mean of the rows of `xi` over the edge list `ei`. -/
def aggOf (xi : (⟨S200000x129, .f32⟩ : BufTy).Contents (Elt F)) (ei : (⟨S2x1600000, .i32⟩ : BufTy).Contents (Elt F)) :
    (⟨S200000x129, .f32⟩ : BufTy).Contents (Elt F) :=
  aggFrom xi (srcVec ei) (dstVec ei) (cntOfDst (dstVec ei))

end Cert.KernelIdeal.HostChain

end
-- ==== Proof.KHost.lean ====
/-
  What the two stages find in their input arrays, and where the result ends up.

  The program is four segments: a first stretch of host operations, the first stage, a second stretch, the second stage.
  The buffer contents fold through them. Read at the buffers the stages stage:
  * after the first stretch the first stage's input is the features of x joined with the mean price (`xfpK`), and its
    weight and bias are the arguments untouched;
  * the second stretch turns the first stage's output `xi` into its in-neighbour mean (`aggOf`), from the source and
    destination vectors and the in-degree the first stretch left; it leaves `xi` itself and the six weight and bias
    arguments untouched.
  A buffer no operation of a stretch writes keeps its contents; a stage leaves every buffer but its own arrays alone.
-/
import proofs.«133648_j59365037965463_1_alg».proof.Proof.Gen.KernelIdeal.Frame
import proofs.«133648_j59365037965463_1_alg».proof.Proof.HostChain

set_option maxRecDepth 16384

noncomputable section

namespace Cert.KernelIdeal.HostValue

open Cert.KernelIdeal Cert.KernelIdeal.Gen Cert.KernelIdeal.HostChain
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- No operation of the stretch `ops` writes the buffer in the goal: each operation's one written buffer is another. -/
local macro "not_written " ops:ident : tactic => `(tactic| (
  refine List.forall_iff_forall_mem.mp ?_
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## After the first stretch -/

set_option maxHeartbeats 16000000 in
/-- The first stage's input: the features of `x` joined with the mean price of each node's in-neighbours. -/
theorem first_input (c : Dev nD) :
    W1 m ρ c (Proc.devRef .tc main_v25) = xfpK (m ((c.tc : Thread nD τ).loc main_arg0)) (m ((c.tc : Thread nD τ).loc main_arg1)) := by
  dsimp only [W1, W0, hostOps0]
  after_results_simp <;> rfl

/-- The first stretch leaves the first layer's weight as launched. -/
theorem first_weight (c : Dev nD) : W1 m ρ c (Proc.devRef .tc main_arg2) = m ((c.tc : Thread nD τ).loc main_arg2) :=
  (StableHlo.after_of_forall_not_mem (b := Proc.devRef .tc main_arg2) _ _ (by not_written hostOps0)).trans rfl

/-- The first stretch leaves the first layer's bias as launched. -/
theorem first_bias (c : Dev nD) : W1 m ρ c (Proc.devRef .tc main_arg3) = m ((c.tc : Thread nD τ).loc main_arg3) :=
  (StableHlo.after_of_forall_not_mem (b := Proc.devRef .tc main_arg3) _ _ (by not_written hostOps0)).trans rfl

set_option maxHeartbeats 16000000 in
/-- The source vector the first stretch leaves. -/
theorem first_src (c : Dev nD) : W1 m ρ c (Proc.devRef .tc main_v1) = srcVec (m ((c.tc : Thread nD τ).loc main_arg1)) := by
  dsimp only [W1, W0, hostOps0]
  after_results_simp <;> rfl

set_option maxHeartbeats 16000000 in
/-- The destination vector the first stretch leaves. -/
theorem first_dst (c : Dev nD) : W1 m ρ c (Proc.devRef .tc main_v3) = dstVec (m ((c.tc : Thread nD τ).loc main_arg1)) := by
  dsimp only [W1, W0, hostOps0]
  after_results_simp <;> rfl

set_option maxHeartbeats 16000000 in
/-- The in-degree the first stretch leaves. -/
theorem first_cnt (c : Dev nD) :
    W1 m ρ c (Proc.devRef .tc main_v17) = cntOfDst (dstVec (m ((c.tc : Thread nD τ).loc main_arg1))) := by
  dsimp only [W1, W0, hostOps0]
  after_results_simp <;> rfl

/-! ## Across the first stage: it writes its own output array only -/

theorem mid_src (c : Dev nD) : W2 m ρ c (Proc.devRef .tc main_v1) = srcVec (m ((c.tc : Thread nD τ).loc main_arg1)) :=
  (W2_of_ne m ρ c main_v1 (by decide)).trans (first_src m ρ c)
theorem mid_dst (c : Dev nD) : W2 m ρ c (Proc.devRef .tc main_v3) = dstVec (m ((c.tc : Thread nD τ).loc main_arg1)) :=
  (W2_of_ne m ρ c main_v3 (by decide)).trans (first_dst m ρ c)
theorem mid_cnt (c : Dev nD) :
    W2 m ρ c (Proc.devRef .tc main_v17) = cntOfDst (dstVec (m ((c.tc : Thread nD τ).loc main_arg1))) :=
  (W2_of_ne m ρ c main_v17 (by decide)).trans (first_cnt m ρ c)

/-- After the first stage its output array holds what its write-backs leave. -/
theorem mid_xi (c : Dev nD) : W2 m ρ c (Proc.devRef .tc main_v26) = (dat0 (V1 m ρ) c).arrAt 3 cfg0.N :=
  W2_arr m ρ c 3

/-! ## After the second stretch -/

set_option maxHeartbeats 16000000 in
/-- The second stage's first input: the in-neighbour mean of the first stage's output, from the vectors and the
    in-degree as the stretch finds them. -/
theorem second_agg_from (c : Dev nD) :
    W3 m ρ c (Proc.devRef .tc main_v41)
      = aggFrom (W2 m ρ c (Proc.devRef .tc main_v26)) (W2 m ρ c (Proc.devRef .tc main_v1))
          (W2 m ρ c (Proc.devRef .tc main_v3)) (W2 m ρ c (Proc.devRef .tc main_v17)) := by
  dsimp only [W3, hostOps1]
  after_results_simp <;> rfl

/-- The second stage's first input is the in-neighbour mean, over the edge list, of the first stage's output. -/
theorem second_agg (c : Dev nD) :
    W3 m ρ c (Proc.devRef .tc main_v41)
      = aggOf (W2 m ρ c (Proc.devRef .tc main_v26)) (m ((c.tc : Thread nD τ).loc main_arg1)) := by
  rw [second_agg_from, mid_src, mid_dst, mid_cnt]; rfl

/-- The second stretch leaves the first stage's output in place. -/
theorem second_xi (c : Dev nD) : W3 m ρ c (Proc.devRef .tc main_v26) = W2 m ρ c (Proc.devRef .tc main_v26) :=
  StableHlo.after_of_forall_not_mem (b := Proc.devRef .tc main_v26) _ _ (by not_written hostOps1)

/-- An argument neither stretch nor the first stage writes is, at the second stage's entry, as launched. -/
theorem second_arg (c : Dev nD) (b : Ref sig .tc)
    (h1 : ∀ op ∈ (hostOps1 : List (HloOp τ sig (Elt F))), Proc.devRef .tc b ∉ op.writes)
    (hr : ∀ w, Pipeline.arrRef spec0 w ≠ b)
    (h0 : ∀ op ∈ (hostOps0 : List (HloOp τ sig (Elt F))), Proc.devRef .tc b ∉ op.writes) :
    W3 m ρ c (Proc.devRef .tc b) = m ((c.tc : Thread nD τ).loc b) :=
  ((StableHlo.after_of_forall_not_mem (b := Proc.devRef .tc b) _ _ h1).trans
    ((W2_of_ne m ρ c b hr).trans (StableHlo.after_of_forall_not_mem (b := Proc.devRef .tc b) _ _ h0))).trans rfl

theorem second_arg4 (c : Dev nD) : W3 m ρ c (Proc.devRef .tc main_arg4) = m ((c.tc : Thread nD τ).loc main_arg4) :=
  second_arg m ρ c main_arg4 (by not_written hostOps1) (by decide) (by not_written hostOps0)
theorem second_arg5 (c : Dev nD) : W3 m ρ c (Proc.devRef .tc main_arg5) = m ((c.tc : Thread nD τ).loc main_arg5) :=
  second_arg m ρ c main_arg5 (by not_written hostOps1) (by decide) (by not_written hostOps0)
theorem second_arg6 (c : Dev nD) : W3 m ρ c (Proc.devRef .tc main_arg6) = m ((c.tc : Thread nD τ).loc main_arg6) :=
  second_arg m ρ c main_arg6 (by not_written hostOps1) (by decide) (by not_written hostOps0)
theorem second_arg7 (c : Dev nD) : W3 m ρ c (Proc.devRef .tc main_arg7) = m ((c.tc : Thread nD τ).loc main_arg7) :=
  second_arg m ρ c main_arg7 (by not_written hostOps1) (by decide) (by not_written hostOps0)
theorem second_arg8 (c : Dev nD) : W3 m ρ c (Proc.devRef .tc main_arg8) = m ((c.tc : Thread nD τ).loc main_arg8) :=
  second_arg m ρ c main_arg8 (by not_written hostOps1) (by decide) (by not_written hostOps0)
theorem second_arg9 (c : Dev nD) : W3 m ρ c (Proc.devRef .tc main_arg9) = m ((c.tc : Thread nD τ).loc main_arg9) :=
  second_arg m ρ c main_arg9 (by not_written hostOps1) (by decide) (by not_written hostOps0)
theorem second_arg10 (c : Dev nD) : W3 m ρ c (Proc.devRef .tc main_arg10) = m ((c.tc : Thread nD τ).loc main_arg10) :=
  second_arg m ρ c main_arg10 (by not_written hostOps1) (by decide) (by not_written hostOps0)

end Cert.KernelIdeal.HostValue

end
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.LibRowCast.lean ====
/-
  A vector read as a row, and an index read at its axes.

  A vector of b entries reshaped to a row [1, b] keeps its entries in order: the row-major position of (u, j) in
  [1, b] is j, the position of j in [b]. So the row reads, at (u, j), entry j of the vector (the companion of the
  column form, a vector [a] reshaped to [a, 1], which reads entry r at (r, u)). A rank-2 index built from two
  coordinates, read back at axis 0 or 1, is that coordinate.
-/
import Idealize.ShloMosaic.Lib.Pipeline.Value
import Idealize.ShloMosaic.Lib.ValueIdx

noncomputable section

namespace Cert.RowCast

open Idealize.ShloMosaic Idealize.ShloMosaic.ValueIdx

/-- A vector of b entries cast to a row [1, b] reads, at (u, j), entry j: the two indices have the same
    row-major position. -/
theorem shapeCast_row_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by have := u.isLt; omega
    rw [Shape.rowMajor_val_two, Shape.rowMajor_val_one]
    show j.val = u.val * b + j.val
    rw [hu]; omega)

/-- A rank-2 index built from its coordinates, read at axis 0, is the first coordinate. -/
theorem ix2_at0 {n0 n1 : ℕ} (a : Fin n0) (b : Fin n1) : (ix2 a b) 0 = a := rfl
/-- Read at axis 1, the second. -/
theorem ix2_at1 {n0 n1 : ℕ} (a : Fin n0) (b : Fin n1) : (ix2 a b) 1 = b := rfl

end Cert.RowCast

end
-- ==== Proof.LibRowBroadcast.lean ====
/-
  A row broadcast down the first axis, read at an index given by coordinates.

  A row, an array of shape [1, b], broadcast along the first axis to [a, b] repeats the row in every one of the
  a rows: at (r, j) it reads the row's entry j, whatever r is. (The companion of the column form, [a, 1]
  broadcast to [a, b], which reads the column's entry r at (r, j).)
-/
import Idealize.ShloMosaic.Lib.Pipeline.Value
import Idealize.ShloMosaic.Lib.ValueIdx

noncomputable section

namespace Cert.RowBroadcast

open Idealize.ShloMosaic Idealize.ShloMosaic.ValueIdx

/-- A row `[1, b]` broadcast along the first axis to `[a, b]` reads, at `(r, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (r : Fin a) (j : Fin b) :
    broadcastTo ⟨2, ![a, b]⟩ v h (ix2 r j) = v (ix2 (0 : Fin 1) j) := by
  refine broadcastTo_apply v h (ix2 r j) (ix2 (0 : Fin 1) j) fun ax => ?_
  match ax with
  | ⟨0, _⟩ => rfl
  | ⟨1, _⟩ =>
    show j.val = if b = 1 then 0 else j.val
    split
    · have := j.isLt; omega
    · rfl

end Cert.RowBroadcast

end
-- ==== Proof.KXiBody.lean ====
/-
  What the first stage's body leaves in its output block, entry by entry, over the extended reals.

  The body reads a [2000,64] block of the input, the [128,63] weights and the [128] bias, and makes two stores into
  the [2000,129] output block: columns 0..127 get tanh (left 63 columns of the input block times the weights
  transposed, plus the bias repeated down the rows), and column 128 gets column 63 of the input block. The two
  rectangles are disjoint and together fill the block, so an entry (p, j) with j < 128 reads the first store's value at
  (p, j), and the entry (p, 128) reads the second store's value at (p, 0). The first store's value at (p, j) is
  tanh ((sum over k < 63 of x(p,k) * W(j,k)) + b(j)): the product is accumulated into zero, the transposed weights
  at (k, j) are the weights at (j, k), the bias row read at (p, j) is b(j), and a change of float format is the
  identity over the extended reals.
-/
import proofs.«133648_j59365037965463_1_alg».proof.Proof.Gen.KernelIdeal.Frame
import proofs.«133648_j59365037965463_1_alg».proof.Proof.LibDotRows
import proofs.«133648_j59365037965463_1_alg».proof.Proof.LibRowCast
import proofs.«133648_j59365037965463_1_alg».proof.Proof.LibRowBroadcast
import Idealize.ShloMosaic.Lib.Pipeline.Value
import Idealize.ShloMosaic.Lib.ValueIdx
import Idealize.ShloMosaic.Lib.Tactic
import Idealize.ShloMosaic.PureOps.Ideal
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.XiBody

open Cert.KernelIdeal Cert.KernelIdeal.Gen Cert.Hand

section Pieces

variable {F : FTy → Type} [FloatOps F]

/-- The left 63 columns of a [2000,64] block, as the body loads them. -/
abbrev ldLeft (x0 : Vec F S2000x64 .f32) : Vec F S2000x63 .f32 :=
  View.ld x0 (Rect.unit (s := S2000x64) ![0, 0] S2000x63.size inb_S2000x64_S2000x63_0_0)

/-- Column 63 of a [2000,64] block, as the body loads it. -/
abbrev ldLast (x0 : Vec F S2000x64 .f32) : Vec F S2000x1 .f32 :=
  View.ld x0 (Rect.unit (s := S2000x64) ![0, 63] S2000x1.size inb_S2000x64_S2000x1_0_63)

theorem hz2 : (![0, 0] : Fin 2 → Nat) = fun _ => 0 := funext fun a => by fin_cases a <;> rfl
theorem hz1 : (![0] : Fin 1 → Nat) = fun _ => 0 := funext fun a => by fin_cases a <;> rfl

/-- Entry (p, k) of the left columns is entry (p, k) of the block. -/
theorem ldLeft_apply (x0 : Vec F S2000x64 .f32) (p : Fin 2000) (k : Fin 63) :
    ldLeft x0 (ix2 p k) = x0 (ix2 p (⟨k.val, by omega⟩ : Fin 64)) := by
  show x0 _ = x0 _
  congr 1
  funext a; apply Fin.ext
  match a with
  | ⟨0, _⟩ => show 0 + 1 * p.val = p.val; omega
  | ⟨1, _⟩ => show 0 + 1 * k.val = k.val; omega

/-- Entry (p, 0) of the last column is entry (p, 63) of the block. -/
theorem ldLast_apply (x0 : Vec F S2000x64 .f32) (p : Fin 2000) :
    ldLast x0 (ix2 p (0 : Fin 1)) = x0 (ix2 p (⟨63, by decide⟩ : Fin 64)) := by
  show x0 _ = x0 _
  congr 1
  funext a; apply Fin.ext
  match a with
  | ⟨0, _⟩ => show 0 + 1 * p.val = p.val; omega
  | ⟨1, _⟩ => show 63 + 1 * 0 = 63; rfl

/-- What the body leaves in the output block at column 128: the second store's payload, the input block's last
    column; the two stores' rectangles are columns 0..127 and column 128, and the later store is the one that holds
    column 128. -/
theorem out_last (c : Dev nD) (i : grid0.Coords) (arg1 : Memref sig .tc .vmem S2000x64 .f32) (harg1 : arg1.IsWhole) (arg2 : Memref sig .tc .vmem S128x63 .f32) (harg2 : arg2.IsWhole) (arg3 : Memref sig .tc .vmem S128 .f32) (harg3 : arg3.IsWhole) (arg4 : Memref sig .tc .vmem S2000x129 .f32) (harg4 : arg4.IsWhole)
    (x0 : Vec F S2000x64 .f32) (x1 : Vec F S128x63 .f32) (x2 : Vec F S128 .f32) (p : Fin 2000) :
    out0_A_3 c i arg1 harg1 arg2 harg2 arg3 harg3 arg4 harg4 x0 x1 x2 (ix2 p (⟨128, by decide⟩ : Fin 129))
      = k0_pay1 (ldLast x0) (ix2 p (0 : Fin 1)) := by
  unfold out0_A_3
  rw [View.read_writes_eq_canon _ _ _ (cover0_A_3 c i arg1 harg1 arg2 harg2 arg3 harg3 arg4 harg4 x0 x1 x2)]
  unfold kernelRun0_A
  dsimp only
  try sl_unfold_words
  simp only [View.readAt_eq_ld, harg1.read_unread, harg2.read_unread, harg3.read_unread]
  have e : (ix2 p (⟨128, by decide⟩ : Fin 129) : S2000x129.Idx)
      = (Rect.unit (s := S2000x129) ![0, 128] S2000x1.size inb_S2000x129_S2000x1_0_128).emb (ix2 p (0 : Fin 1)) := by
    funext a; apply Fin.ext
    match a with
    | ⟨0, _⟩ => show p.val = 0 + 1 * p.val; omega
    | ⟨1, _⟩ => show 128 = 128 + 1 * 0; rfl
  rw [e]
  exact View.canon_cons_emb _ _ _ _

/-- What the body leaves in the output block at a column j < 128: the first store's payload at (p, j); the later
    store's rectangle is column 128 alone and does not hold the entry. -/
theorem out_left (c : Dev nD) (i : grid0.Coords) (arg1 : Memref sig .tc .vmem S2000x64 .f32) (harg1 : arg1.IsWhole) (arg2 : Memref sig .tc .vmem S128x63 .f32) (harg2 : arg2.IsWhole) (arg3 : Memref sig .tc .vmem S128 .f32) (harg3 : arg3.IsWhole) (arg4 : Memref sig .tc .vmem S2000x129 .f32) (harg4 : arg4.IsWhole)
    (x0 : Vec F S2000x64 .f32) (x1 : Vec F S128x63 .f32) (x2 : Vec F S128 .f32) (p : Fin 2000) (j : Fin 128) :
    out0_A_3 c i arg1 harg1 arg2 harg2 arg3 harg3 arg4 harg4 x0 x1 x2 (ix2 p (⟨j.val, by omega⟩ : Fin 129))
      = k0_pay2 (ldLeft x0) x1 x2 (ix2 p j) := by
  unfold out0_A_3
  rw [View.read_writes_eq_canon _ _ _ (cover0_A_3 c i arg1 harg1 arg2 harg2 arg3 harg3 arg4 harg4 x0 x1 x2)]
  unfold kernelRun0_A
  dsimp only
  try sl_unfold_words
  simp only [View.readAt_eq_ld, harg1.read_unread, harg2.read_unread, harg3.read_unread,
    View.ld_unit_zero (S := S128x63) hz2, View.ld_unit_zero (S := S128) hz1]
  rw [View.canon_cons_of_not_mem]
  · have e : (ix2 p (⟨j.val, by omega⟩ : Fin 129) : S2000x129.Idx)
        = (Rect.unit (s := S2000x129) ![0, 0] S2000x128.size inb_S2000x129_S2000x128_0_0).emb (ix2 p j) := by
      funext a; apply Fin.ext
      match a with
      | ⟨0, _⟩ => show p.val = 0 + 1 * p.val; omega
      | ⟨1, _⟩ => show j.val = 0 + 1 * j.val; omega
    rw [e]
    exact View.canon_cons_emb _ _ _ _
  · rw [Rect.mem_set_unit]
    intro h
    have h1 := (h 1).1
    have hj := j.isLt
    change 128 ≤ j.val at h1
    omega

end Pieces

section Payload

/-- The matrix product into a zero accumulator at an entry: the sum over the contraction index. -/
theorem mm_apply (l : FVec Ideal S2000x63 .bf16) (r : FVec Ideal S63x128 .bf16) (p : Fin 2000) (q : Fin 128) :
    matmul (F := Ideal) dot_S2000x63_S63x128_S2000x128_1_0_0_1_n_n none l r (constant (F := Ideal) S2000x128 .f32 0x00000000#32) (ix2 p q)
      = ∑ k : Fin 63, l (ix2 p k) * r (ix2 k q) := by
  show FloatOps.matmul dot_S2000x63_S63x128_S2000x128_1_0_0_1_n_n none l r (constant (F := Ideal) S2000x128 .f32 0x00000000#32) (ix2 p q) = _
  rw [Ideal.matmul_constant_zero_apply]
  dot_rows dot_S2000x63_S63x128_S2000x128_1_0_0_1_n_n S2000x63 S63x128 63

/-- The transposed weights at (k, q) are the weights at (q, k). -/
theorem tr_apply (w : FVec Ideal S128x63 .bf16) (k : Fin 63) (q : Fin 128) :
    transpose S63x128 [1, 0] w transposes_S128x63_p1_0_S63x128 (ix2 k q) = w (ix2 q k) :=
  transpose_apply [1, 0] w transposes_S128x63_p1_0_S63x128 (ix2 k q) (ix2 q k) fun b => by
    match b with
    | ⟨0, _⟩ => rfl
    | ⟨1, _⟩ => rfl

/-- The bias, read as a row and repeated down the rows, at (p, q) is the bias at q. -/
theorem bias_apply (v7 : Vec Ideal S128 .f32) (p : Fin 2000) (q : Fin 128) :
    broadcastTo S2000x128 (shapeCast S1x128 v7 shapeCasts_S128_S1x128) broadcasts_S1x128_S2000x128 (ix2 p q) = v7 (ix1 q) :=
  (Cert.RowBroadcast.broadcastTo_1b_ab_apply _ broadcasts_S1x128_S2000x128 p q).trans
    (Cert.RowCast.shapeCast_row_apply v7 shapeCasts_S128_S1x128 (0 : Fin 1) q)

end Payload

section Entries

/-- The first payload at an entry: the hidden unit's tanh. (Stated over variables; the matrix product is into a
    zero accumulator, the right operand is W1 transposed, the bias is a row repeated down the rows, and a change of
    float format is the identity at the ideal instance.) -/
theorem pay2_apply (v0 : Vec Ideal S2000x63 .f32) (v5 : Vec Ideal S128x63 .f32) (v7 : Vec Ideal S128 .f32) (p : Fin 2000) (j : Fin 128) :
    k0_pay2 (F := Ideal) v0 v5 v7 (ix2 p j) = Ideal.tanh ((∑ k : Fin 63, v0 (ix2 p k) * v5 (ix2 j k)) + v7 (ix1 j)) := by
  unfold k0_pay2
  show Ideal.tanh (matmul (F := Ideal) dot_S2000x63_S63x128_S2000x128_1_0_0_1_n_n none _ _ _ (ix2 p j) + broadcastTo S2000x128 _ _ (ix2 p j)) = _
  rw [mm_apply, bias_apply]
  refine congrArg (fun s => Ideal.tanh (s + v7 (ix1 j))) ?_
  refine Finset.sum_congr rfl fun k _ => ?_
  rw [tr_apply]
  rw [shapeCast_self]
  rfl

/-- The second payload is its operand. -/
theorem pay1_eq {F : FTy → Type} [FloatOps F] (v2 : Vec F S2000x1 .f32) : k0_pay1 v2 = v2 := by
  unfold k0_pay1
  exact shapeCast_self _ _

/-- Entry (p, j), j < 128, of what the body leaves in the output block, over the three input blocks. -/
theorem out_entry_left (c : Dev nD) (i : grid0.Coords) (arg1 : Memref sig .tc .vmem S2000x64 .f32) (harg1 : arg1.IsWhole) (arg2 : Memref sig .tc .vmem S128x63 .f32) (harg2 : arg2.IsWhole) (arg3 : Memref sig .tc .vmem S128 .f32) (harg3 : arg3.IsWhole) (arg4 : Memref sig .tc .vmem S2000x129 .f32) (harg4 : arg4.IsWhole)
    (x0 : Vec Ideal S2000x64 .f32) (x1 : Vec Ideal S128x63 .f32) (x2 : Vec Ideal S128 .f32) (p : Fin 2000) (j : Fin 128) :
    out0_A_3 (F := Ideal) c i arg1 harg1 arg2 harg2 arg3 harg3 arg4 harg4 x0 x1 x2 (ix2 p (⟨j.val, by omega⟩ : Fin 129))
      = Ideal.tanh ((∑ k : Fin 63, x0 (ix2 p (⟨k.val, by omega⟩ : Fin 64)) * x1 (ix2 j k)) + x2 (ix1 j)) := by
  refine (out_left c i arg1 harg1 arg2 harg2 arg3 harg3 arg4 harg4 x0 x1 x2 p j).trans ?_
  refine (pay2_apply (ldLeft x0) x1 x2 p j).trans ?_
  refine congrArg (fun s => Ideal.tanh (s + x2 (ix1 j))) ?_
  exact Finset.sum_congr rfl fun k _ => congrArg (· * x1 (ix2 j k)) (ldLeft_apply x0 p k)

/-- Entry (p, 128) of what the body leaves in the output block: entry (p, 63) of the first input block. -/
theorem out_entry_last (c : Dev nD) (i : grid0.Coords) (arg1 : Memref sig .tc .vmem S2000x64 .f32) (harg1 : arg1.IsWhole) (arg2 : Memref sig .tc .vmem S128x63 .f32) (harg2 : arg2.IsWhole) (arg3 : Memref sig .tc .vmem S128 .f32) (harg3 : arg3.IsWhole) (arg4 : Memref sig .tc .vmem S2000x129 .f32) (harg4 : arg4.IsWhole)
    (x0 : Vec Ideal S2000x64 .f32) (x1 : Vec Ideal S128x63 .f32) (x2 : Vec Ideal S128 .f32) (p : Fin 2000) :
    out0_A_3 (F := Ideal) c i arg1 harg1 arg2 harg2 arg3 harg3 arg4 harg4 x0 x1 x2 (ix2 p (⟨128, by decide⟩ : Fin 129))
      = x0 (ix2 p (⟨63, by decide⟩ : Fin 64)) := by
  refine (out_last c i arg1 harg1 arg2 harg2 arg3 harg3 arg4 harg4 x0 x1 x2 p).trans ?_
  rw [pay1_eq]
  exact ldLast_apply x0 p

end Entries

end Cert.KernelIdeal.XiBody

end
-- ==== Proof.Spec.lean ====
/-
  The two arrays this certificate compares, each as one function of the arrays it is computed from, entry by entry, over
  the extended reals. No program is imported here.

  A node r has 64 input columns. The first stage keeps columns 1..63 as features and replaces column 0, the price, by
  the mean price of the node's in-neighbours, placed last: that is the 64-column array `xfp`. The node features `xi`
  have 129 columns: column j < 128 is tanh (sum over k < 63 of xfp(r,k) * W1(j,k) + b1(j)), and column 128 is
  xfp(r,63), the mean price. The output of node r is a two-layer head over a graph convolution:
    hid(r,h) = (sum_k agg(r,k) * Wl(h,k) + bl(h)) + sum_k xi(r,k) * Wr(h,k)          (k < 129, h < 128)
    act(r,c) = max (sum_h hid(r,h) * W2(c,h) + b2(c)) 0                               (c < 128)
    out(r)   = sum_c act(r,c) * W3(0,c) + b3(0)
  where agg is the in-neighbour mean of xi. The sums and products are those of the extended reals, in this order and
  grouping; nothing here needs them to be finite.
-/
import Idealize.ShloMosaic.PureOps.Ideal
import Idealize.ShloMosaic.Lib.ValueIdx

noncomputable section

namespace Cert.SageSpec

open Idealize.ShloMosaic Idealize.ShloMosaic.ValueIdx

/-- Real-valued arrays of the shapes that occur. -/
abbrev Arr (s : Shape) : Type := s.Idx → EReal

/-- Entry (r, k) of the first stage's input: feature column k + 1 of x for k < 63, the mean price of r's in-neighbours
    for k = 63. -/
def xfpAt (x : Arr ⟨2, ![200000, 64]⟩) (pm : Arr ⟨1, ![200000]⟩) (r : Fin 200000) (k : Fin 64) : EReal :=
  if h : k.val < 63 then x (ix2 r (⟨1 + k.val, by omega⟩ : Fin 64)) else pm (ix1 r)

/-- The first stage's input as an array. -/
def xfpOf (x : Arr ⟨2, ![200000, 64]⟩) (pm : Arr ⟨1, ![200000]⟩) : Arr ⟨2, ![200000, 64]⟩ :=
  fun i => xfpAt x pm ⟨(i 0).val, (i 0).isLt⟩ ⟨(i 1).val, (i 1).isLt⟩

/-- Entry (r, j) of the node features: a hidden unit's tanh for j < 128, the mean price for j = 128. -/
def xiAt (xfp : Arr ⟨2, ![200000, 64]⟩) (W1 : Arr ⟨2, ![128, 63]⟩) (b1 : Arr ⟨1, ![128]⟩) (r : Fin 200000) (j : Fin 129) : EReal :=
  if h : j.val < 128 then
    Ideal.tanh ((∑ k : Fin 63, xfp (ix2 r (⟨k.val, by omega⟩ : Fin 64)) * W1 (ix2 (⟨j.val, h⟩ : Fin 128) k)) + b1 (ix1 (⟨j.val, h⟩ : Fin 128)))
  else xfp (ix2 r (⟨63, by decide⟩ : Fin 64))

/-- The node features as an array. -/
def xiOf (xfp : Arr ⟨2, ![200000, 64]⟩) (W1 : Arr ⟨2, ![128, 63]⟩) (b1 : Arr ⟨1, ![128]⟩) : Arr ⟨2, ![200000, 129]⟩ :=
  fun i => xiAt xfp W1 b1 ⟨(i 0).val, (i 0).isLt⟩ ⟨(i 1).val, (i 1).isLt⟩

/-- The graph convolution's unit h at node r: the neighbours' mean through Wl with its bias, plus the node's own features
    through Wr. -/
def hidAt (agg xi : Arr ⟨2, ![200000, 129]⟩) (Wl : Arr ⟨2, ![128, 129]⟩) (bl : Arr ⟨1, ![128]⟩) (Wr : Arr ⟨2, ![128, 129]⟩)
    (r : Fin 200000) (h : Fin 128) : EReal :=
  ((∑ k : Fin 129, agg (ix2 r k) * Wl (ix2 h k)) + bl (ix1 h)) + ∑ k : Fin 129, xi (ix2 r k) * Wr (ix2 h k)

/-- The head's hidden unit c at node r, after the rectifier. -/
def actAt (agg xi : Arr ⟨2, ![200000, 129]⟩) (Wl : Arr ⟨2, ![128, 129]⟩) (bl : Arr ⟨1, ![128]⟩) (Wr : Arr ⟨2, ![128, 129]⟩)
    (W2 : Arr ⟨2, ![128, 128]⟩) (b2 : Arr ⟨1, ![128]⟩) (r : Fin 200000) (c : Fin 128) : EReal :=
  max ((∑ h : Fin 128, hidAt agg xi Wl bl Wr r h * W2 (ix2 c h)) + b2 (ix1 c)) 0

/-- The output at node r. -/
def outAt (agg xi : Arr ⟨2, ![200000, 129]⟩) (Wl : Arr ⟨2, ![128, 129]⟩) (bl : Arr ⟨1, ![128]⟩) (Wr : Arr ⟨2, ![128, 129]⟩)
    (W2 : Arr ⟨2, ![128, 128]⟩) (b2 : Arr ⟨1, ![128]⟩) (W3 : Arr ⟨2, ![1, 128]⟩) (b3 : Arr ⟨1, ![1]⟩) (r : Fin 200000) : EReal :=
  (∑ c : Fin 128, actAt agg xi Wl bl Wr W2 b2 r c * W3 (ix2 (0 : Fin 1) c)) + b3 (ix1 (0 : Fin 1))

/-- The output as an array of one column. -/
def outOf (agg xi : Arr ⟨2, ![200000, 129]⟩) (Wl : Arr ⟨2, ![128, 129]⟩) (bl : Arr ⟨1, ![128]⟩) (Wr : Arr ⟨2, ![128, 129]⟩)
    (W2 : Arr ⟨2, ![128, 128]⟩) (b2 : Arr ⟨1, ![128]⟩) (W3 : Arr ⟨2, ![1, 128]⟩) (b3 : Arr ⟨1, ![1]⟩) : Arr ⟨2, ![200000, 1]⟩ :=
  fun i => outAt agg xi Wl bl Wr W2 b2 W3 b3 ⟨(i 0).val, (i 0).isLt⟩

end Cert.SageSpec

end
-- ==== Proof.KXi.lean ====
/-
  The node-feature array after the first stage, as one function of the arrays the stage finds.

  The stage runs over 100 points; point t reads rows 2000 t .. 2000 t + 1999 of the 64-column input (all of the
  weights and the bias at every point) and writes back rows 2000 t .. 2000 t + 1999 of the 129-column output. Entry
  (p, q) of the block point t writes is the specification's node feature at row 2000 t + p, column q: the hidden
  unit's tanh for q < 128, the input's last column for q = 128. Row r of the output lies in the block of point
  r / 2000, every point writes its block back, so the blocks cover the array and the array ends holding the
  specification's node features.
-/
import proofs.«133648_j59365037965463_1_alg».proof.Proof.KXiBody
import proofs.«133648_j59365037965463_1_alg».proof.Proof.Spec
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.XiValue

open Cert.KernelIdeal Cert.KernelIdeal.Gen Cert.KernelIdeal.XiBody Cert.SageSpec

variable (V : (c : Dev nD) → (b : Ref sig .tc) → Buf (Elt Ideal) ((c : Thread nD τ).loc b))

/-- The printed index maps, decided once over the 100 grid points: the row-blocked windows (the input block and the
    output block) sit at row block t and column block 0; the weight and bias windows at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Entry (p, q) of the input block at point t is entry (2000 t + p, q) of the input array. -/
theorem blk0_apply (c : Dev nD) (t : Fin cfg0.N) (p : Fin 2000) (q : Fin 64) (r : Fin 200000)
    (hr : r.val = 2000 * t.val + p.val) :
    (iblk0 V c 0 t : Vec Ideal S2000x64 .f32) (ix2 p q) = (V c main_v25 : S200000x64.Idx → EReal) (ix2 r q) := by
  obtain ⟨e0, e1, -⟩ := idx_facts t
  unfold iblk0
  rw [View.read_apply]
  show V c main_v25 _ = V c main_v25 _
  congr 1
  funext a; apply Fin.ext
  match a with
  | ⟨0, _⟩ => show win0_0.index t 0 * 2000 + 1 * p.val = r.val; rw [e0, hr]; omega
  | ⟨1, _⟩ => show win0_0.index t 1 * 64 + 1 * q.val = q.val; rw [e1]; omega

/-- The weight window's block at any point is the weight array. -/
theorem blk1_apply (c : Dev nD) (t : Fin cfg0.N) (j : Fin 128) (k : Fin 63) :
    (iblk0 V c 1 t : Vec Ideal S128x63 .f32) (ix2 j k) = (V c main_arg2 : S128x63.Idx → EReal) (ix2 j k) := by
  obtain ⟨-, -, e0, e1, -⟩ := idx_facts t
  unfold iblk0
  rw [View.read_apply]
  show V c main_arg2 _ = V c main_arg2 _
  congr 1
  funext a; apply Fin.ext
  match a with
  | ⟨0, _⟩ => show win0_1.index t 0 * 128 + 1 * j.val = j.val; rw [e0]; omega
  | ⟨1, _⟩ => show win0_1.index t 1 * 63 + 1 * k.val = k.val; rw [e1]; omega

/-- The bias window's block at any point is the bias array. -/
theorem blk2_apply (c : Dev nD) (t : Fin cfg0.N) (j : Fin 128) :
    (iblk0 V c 2 t : Vec Ideal S128 .f32) (ix1 j) = (V c main_arg3 : S128.Idx → EReal) (ix1 j) := by
  obtain ⟨-, -, -, -, e0, -⟩ := idx_facts t
  unfold iblk0
  rw [View.read_apply]
  show V c main_arg3 _ = V c main_arg3 _
  congr 1
  funext a; apply Fin.ext
  match a with
  | ⟨0, _⟩ => show win0_2.index t 0 * 128 + 1 * j.val = j.val; rw [e0]; omega

/-- What point t leaves in the output block at (p, q) is the specification's node feature at row 2000 t + p,
    column q. -/
theorem point_eq (c : Dev nD) (t : Fin cfg0.N) (y : S2000x129.Idx) (i : S200000x129.Idx)
    (h0 : (i 0).val = 2000 * t.val + (y 0).val) (h1 : (i 1).val = (y 1).val) :
    outsAt0 V c t y = xiOf (V c main_v25) (V c main_arg2) (V c main_arg3) i := by
  obtain ⟨p, q, rfl⟩ : ∃ (p : Fin 2000) (q : Fin 129), y = ix2 p q := ⟨y 0, y 1, eq_ix2 y⟩
  obtain ⟨r, k, rfl⟩ : ∃ (r : Fin 200000) (k : Fin 129), i = ix2 r k := ⟨i 0, i 1, eq_ix2 i⟩
  have hr : r.val = 2000 * t.val + p.val := h0
  obtain rfl : k = q := Fin.ext h1
  unfold outsAt0
  show _ = xiAt (V c main_v25) (V c main_arg2) (V c main_arg3) r k
  unfold xiAt
  by_cases hq : k.val < 128
  · rw [dif_pos hq]
    refine (out_entry_left c (grid0.coords t) (ms0_0 t) (hs0_0 t) (ms0_1 t) (hs0_1 t) (ms0_2 t) (hs0_2 t) (ms0_3 t) (hs0_3 t)
      (iblk0 V c 0 t) (iblk0 V c 1 t) (iblk0 V c 2 t) p ⟨k.val, hq⟩).trans ?_
    rw [blk2_apply V c t ⟨k.val, hq⟩]
    refine congrArg (fun s => Ideal.tanh (s + _)) ?_
    refine Finset.sum_congr rfl fun a _ => ?_
    rw [blk0_apply V c t p ⟨a.val, by omega⟩ r hr, blk1_apply V c t ⟨k.val, hq⟩ a]
  · rw [dif_neg hq]
    obtain rfl : k = ⟨128, by decide⟩ := Fin.ext (by have := k.isLt; show k.val = 128; omega)
    refine (out_entry_last c (grid0.coords t) (ms0_0 t) (hs0_0 t) (ms0_1 t) (hs0_1 t) (ms0_2 t) (hs0_2 t) (ms0_3 t) (hs0_3 t)
      (iblk0 V c 0 t) (iblk0 V c 1 t) (iblk0 V c 2 t) p).trans ?_
    exact blk0_apply V c t p ⟨63, by decide⟩ r hr

/-- What point t writes back is block t of the specification's node features of the arrays the region finds. -/
theorem flushed_eq (c : Dev nD) (t : Fin cfg0.N) :
    (dat0 (F := Ideal) V c).flushed 3 t
      = ((cfg0.win 3).blk t).view.read (Elt Ideal) (xiOf (V c main_v25) (V c main_arg2) (V c main_arg3)) := by
  obtain ⟨-, -, -, -, -, e0, e1⟩ := idx_facts t
  show (cfg0.win 3).cut (grid0.coords t) ((dat0 V c).after 3 t) = _
  rw [after0_3]
  funext y
  refine point_eq V c t _ _ ?_ ?_
  · show win0_3.index t 0 * 2000 + 1 * (y 0).val = 2000 * t.val + (y 0).val
    rw [e0]; omega
  · show win0_3.index t 1 * 129 + 1 * (y 1).val = (y 1).val
    rw [e1]; omega

/-- An index of the output array is in point t's block iff each coordinate is in the block's range on its axis. -/
theorem mem_blk (t : Fin cfg0.N) (i : S200000x129.Idx) :
    i ∈ ((cfg0.win 3).blk t).view.set ↔ ∀ a : Fin 2, win0_3.index t a * S2000x129.size a ≤ (i a).val
      ∧ (i a).val < win0_3.index t a * S2000x129.size a + S2000x129.size a := by
  show i ∈ ((View.whole main_v26).slice (win0_3.rect t)).set ↔ _
  rw [View.set_slice_whole, Rect.mem_set_unit]
  exact Iff.rfl

/-- Row r of the output array is in the block of point r / 2000. -/
theorem cover (i : S200000x129.Idx) :
    ∃ t : Fin cfg0.N, (cfg0.win 3).flush t = true ∧ i ∈ ((cfg0.win 3).blk t).view.set := by
  have hi0 : (i 0).val < 200000 := (i 0).isLt
  have hi1 : (i 1).val < 129 := (i 1).isLt
  have hN : cfg0.N = 100 := N_0
  have ht : (i 0).val / 2000 < cfg0.N := by rw [hN]; omega
  obtain ⟨-, -, -, -, -, e0, e1⟩ := idx_facts ⟨(i 0).val / 2000, ht⟩
  refine ⟨⟨(i 0).val / 2000, ht⟩, flush0_3 _, ?_⟩
  rw [mem_blk]
  intro a
  match a with
  | ⟨0, _⟩ =>
    show win0_3.index ⟨(i 0).val / 2000, ht⟩ 0 * 2000 ≤ (i 0).val
      ∧ (i 0).val < win0_3.index ⟨(i 0).val / 2000, ht⟩ 0 * 2000 + 2000
    rw [e0]; show (i 0).val / 2000 * 2000 ≤ (i 0).val ∧ (i 0).val < (i 0).val / 2000 * 2000 + 2000; omega
  | ⟨1, _⟩ =>
    show win0_3.index ⟨(i 0).val / 2000, ht⟩ 1 * 129 ≤ (i 1).val
      ∧ (i 1).val < win0_3.index ⟨(i 0).val / 2000, ht⟩ 1 * 129 + 129
    rw [e1]; omega

/-- The node-feature array after the first stage's run is the specification's, of the arrays the region finds. -/
theorem region0_array (V : (c : Dev nD) → (b : Ref sig .tc) → Buf (Elt Ideal) ((c : Thread nD τ).loc b)) (c : Dev nD) :
    (dat0 (F := Ideal) V c).arrAt 3 cfg0.N = Cert.SageSpec.xiOf (V c main_v25) (V c main_arg2) (V c main_arg3) :=
  (dat0 V c).arrAt_eq_of_cover 3 _ (fun t _ => flushed_eq V c t) cover

end Cert.KernelIdeal.XiValue

end
-- ==== Proof.KOutBody.lean ====
/-
  The second kernel's arithmetic, read at one entry of its output block.

  The block's value is one pure term of the nine blocks the body loads: two [2000,129] row blocks (the neighbours'
  mean and the node's own features), the two [128,129] convolution weights with the [128] bias, the [128,128]
  head weight with its [128] bias, and the [1,128] output weight with its [1] bias. Over the extended reals a
  change of float format is the identity and a product with a zero accumulator is the plain sum over the
  contraction index, so entry (p, 0) of the block is

    sum_c max (sum_h hid(p,h) * W2(c,h) + b2(c)) 0 * W3(0,c) + b3(0),
    hid(p,h) = (sum_k a(p,k) * Wl(h,k) + bl(h)) + sum_k x(p,k) * Wr(h,k).

  The term is cut into its three layers (the graph convolution, the rectified head, the output), each read at an
  entry by its own lemma: a matrix product against a transposed weight is the sum over k of left (p, k) times
  weight (q, k); a bias vector cast to a row and repeated down the rows reads its entry q at (p, q).
-/
import proofs.«133648_j59365037965463_1_alg».proof.Proof.Gen.KernelIdeal.Skeleton
import proofs.«133648_j59365037965463_1_alg».proof.Proof.LibDotRows
import proofs.«133648_j59365037965463_1_alg».proof.Proof.LibRowCast
import proofs.«133648_j59365037965463_1_alg».proof.Proof.LibRowBroadcast
import Idealize.ShloMosaic.Lib.Pipeline.Value
import Idealize.ShloMosaic.Lib.ValueIdx
import Idealize.ShloMosaic.PureOps.Ideal.Laws

noncomputable section

namespace Cert.KernelIdeal.OutBody

open Idealize.ShloMosaic Idealize.ShloMosaic.ValueIdx
open Cert.KernelIdeal Cert.KernelIdeal.Gen
open Cert.Hand

/-! ## Matrix products with a zero accumulator, at an entry -/

/-- [2000,129] times [129,128]: entry (p, q) is the sum over k of left (p, k) times right (k, q). -/
theorem mm129 (l : FVec Ideal S2000x129 .bf16) (r : FVec Ideal S129x128 .bf16) (p : Fin 2000) (q : Fin 128) :
    matmul (F := Ideal) dot_S2000x129_S129x128_S2000x128_1_0_0_1_n_n none l r
        (constant (F := Ideal) S2000x128 .f32 0x00000000#32) (ix2 p q)
      = ∑ k : Fin 129, l (ix2 p k) * r (ix2 k q) := by
  show FloatOps.matmul _ _ _ _ _ _ = _
  rw [Ideal.matmul_constant_zero_apply]
  dot_rows dot_S2000x129_S129x128_S2000x128_1_0_0_1_n_n S2000x129 S129x128 129

/-- [2000,128] times [128,128]. -/
theorem mm128 (l : FVec Ideal S2000x128 .bf16) (r : FVec Ideal S128x128 .bf16) (p : Fin 2000) (q : Fin 128) :
    matmul (F := Ideal) dot_S2000x128_S128x128_S2000x128_1_0_0_1_n_n none l r
        (constant (F := Ideal) S2000x128 .f32 0x00000000#32) (ix2 p q)
      = ∑ k : Fin 128, l (ix2 p k) * r (ix2 k q) := by
  show FloatOps.matmul _ _ _ _ _ _ = _
  rw [Ideal.matmul_constant_zero_apply]
  dot_rows dot_S2000x128_S128x128_S2000x128_1_0_0_1_n_n S2000x128 S128x128 128

/-- [2000,128] times [128,1]. -/
theorem mm1 (l : FVec Ideal S2000x128 .bf16) (r : FVec Ideal S128x1 .bf16) (p : Fin 2000) (q : Fin 1) :
    matmul (F := Ideal) dot_S2000x128_S128x1_S2000x1_1_0_0_1_n_n none l r
        (constant (F := Ideal) S2000x1 .f32 0x00000000#32) (ix2 p q)
      = ∑ k : Fin 128, l (ix2 p k) * r (ix2 k q) := by
  show FloatOps.matmul _ _ _ _ _ _ = _
  rw [Ideal.matmul_constant_zero_apply]
  dot_rows dot_S2000x128_S128x1_S2000x1_1_0_0_1_n_n S2000x128 S128x1 128

/-! ## The transposed weights, at an entry -/

theorem tr129 (w : FVec Ideal S128x129 .bf16) (k : Fin 129) (q : Fin 128) :
    transpose S129x128 [1, 0] w transposes_S128x129_p1_0_S129x128 (ix2 k q) = w (ix2 q k) :=
  transpose_apply [1, 0] w transposes_S128x129_p1_0_S129x128 (ix2 k q) (ix2 q k) (fun b => by
    match b with
    | ⟨0, _⟩ => rfl
    | ⟨1, _⟩ => rfl)

theorem tr128 (w : FVec Ideal S128x128 .bf16) (k : Fin 128) (q : Fin 128) :
    transpose S128x128 [1, 0] w transposes_S128x128_p1_0_S128x128 (ix2 k q) = w (ix2 q k) :=
  transpose_apply [1, 0] w transposes_S128x128_p1_0_S128x128 (ix2 k q) (ix2 q k) (fun b => by
    match b with
    | ⟨0, _⟩ => rfl
    | ⟨1, _⟩ => rfl)

theorem tr1 (w : FVec Ideal S1x128 .bf16) (k : Fin 128) (q : Fin 1) :
    transpose S128x1 [1, 0] w transposes_S1x128_p1_0_S128x1 (ix2 k q) = w (ix2 q k) :=
  transpose_apply [1, 0] w transposes_S1x128_p1_0_S128x1 (ix2 k q) (ix2 q k) (fun b => by
    match b with
    | ⟨0, _⟩ => rfl
    | ⟨1, _⟩ => rfl)

/-! ## The bias rows, at an entry -/

/-- A [128] vector cast to a row and repeated down 2000 rows reads its entry q at (p, q). -/
theorem bias128 (b : FVec Ideal S128 .f32) (p : Fin 2000) (q : Fin 128) :
    broadcastTo S2000x128 (shapeCast S1x128 b shapeCasts_S128_S1x128) broadcasts_S1x128_S2000x128 (ix2 p q) = b (ix1 q) :=
  (Cert.RowBroadcast.broadcastTo_1b_ab_apply (shapeCast S1x128 b shapeCasts_S128_S1x128) broadcasts_S1x128_S2000x128 p q).trans
    (Cert.RowCast.shapeCast_row_apply b shapeCasts_S128_S1x128 (0 : Fin 1) q)

/-- A [1] vector cast to a [1,1] row and repeated down 2000 rows reads its one entry. -/
theorem bias1 (b : FVec Ideal S1 .f32) (p : Fin 2000) (q : Fin 1) :
    broadcastTo S2000x1 (shapeCast S1x1 b shapeCasts_S1_S1x1) broadcasts_S1x1_S2000x1 (ix2 p q) = b (ix1 q) :=
  (Cert.RowBroadcast.broadcastTo_1b_ab_apply (shapeCast S1x1 b shapeCasts_S1_S1x1) broadcasts_S1x1_S2000x1 p q).trans
    (Cert.RowCast.shapeCast_row_apply b shapeCasts_S1_S1x1 (0 : Fin 1) q)

/-! ## The three layers of the body's term -/

/-- The graph convolution's [2000,128] block: the neighbours' mean through Wl with its bias, plus the node's own
    features through Wr. -/
def hidV (v0 v3 : FVec Ideal S2000x129 .f32) (v6 : FVec Ideal S128x129 .f32) (v8 : FVec Ideal S128 .f32)
    (v9 : FVec Ideal S128x129 .f32) : FVec Ideal S2000x128 .f32 :=
  addf
    (addf
      (matmul dot_S2000x129_S129x128_S2000x128_1_0_0_1_n_n none
        (truncf .bf16 (shapeCast S2000x129 v0 shapeCasts_S2000x129_S2000x129) bitsLt_bf16_f32)
        (transpose S129x128 [1, 0] (truncf .bf16 v6 bitsLt_bf16_f32) transposes_S128x129_p1_0_S129x128)
        (constant S2000x128 .f32 0x00000000#32))
      (broadcastTo S2000x128 (shapeCast S1x128 v8 shapeCasts_S128_S1x128) broadcasts_S1x128_S2000x128))
    (matmul dot_S2000x129_S129x128_S2000x128_1_0_0_1_n_n none
      (truncf .bf16 (shapeCast S2000x129 v3 shapeCasts_S2000x129_S2000x129) bitsLt_bf16_f32)
      (transpose S129x128 [1, 0] (truncf .bf16 v9 bitsLt_bf16_f32) transposes_S128x129_p1_0_S129x128)
      (constant S2000x128 .f32 0x00000000#32))

/-- The head's hidden [2000,128] block after the rectifier, from the convolution's block. -/
def actV (hid : FVec Ideal S2000x128 .f32) (v11 : FVec Ideal S128x128 .f32) (v13 : FVec Ideal S128 .f32) :
    FVec Ideal S2000x128 .f32 :=
  maximumf
    (addf
      (matmul dot_S2000x128_S128x128_S2000x128_1_0_0_1_n_n none
        (truncf .bf16 hid bitsLt_bf16_f32)
        (transpose S128x128 [1, 0] (truncf .bf16 v11 bitsLt_bf16_f32) transposes_S128x128_p1_0_S128x128)
        (constant S2000x128 .f32 0x00000000#32))
      (broadcastTo S2000x128 (shapeCast S1x128 v13 shapeCasts_S128_S1x128) broadcasts_S1x128_S2000x128))
    (broadcast S2000x128 (Scalar.ofBits (F := Ideal) .f32 0x00000000#32))

/-- The output [2000,1] block, from the head's hidden block. -/
def outV (act : FVec Ideal S2000x128 .f32) (v14 : FVec Ideal S1x128 .f32) (v16 : FVec Ideal S1 .f32) :
    FVec Ideal S2000x1 .f32 :=
  addf
    (matmul dot_S2000x128_S128x1_S2000x1_1_0_0_1_n_n none
      (truncf .bf16 act bitsLt_bf16_f32)
      (transpose S128x1 [1, 0] (truncf .bf16 v14 bitsLt_bf16_f32) transposes_S1x128_p1_0_S128x1)
      (constant S2000x1 .f32 0x00000000#32))
    (broadcastTo S2000x1 (shapeCast S1x1 v16 shapeCasts_S1_S1x1) broadcasts_S1x1_S2000x1)

/-- The body's term is the three layers composed: the same operations in the same order. -/
theorem pay_eq_layers (v0 v3 : FVec Ideal S2000x129 .f32) (v6 : FVec Ideal S128x129 .f32) (v8 : FVec Ideal S128 .f32)
    (v9 : FVec Ideal S128x129 .f32) (v11 : FVec Ideal S128x128 .f32) (v13 : FVec Ideal S128 .f32)
    (v14 : FVec Ideal S1x128 .f32) (v16 : FVec Ideal S1 .f32) :
    k1_pay1 (F := Ideal) v0 v3 v6 v8 v9 v11 v13 v14 v16 = outV (actV (hidV v0 v3 v6 v8 v9) v11 v13) v14 v16 := rfl

/-- The convolution's block at (p, h). -/
theorem hidV_apply (v0 v3 : FVec Ideal S2000x129 .f32) (v6 : FVec Ideal S128x129 .f32) (v8 : FVec Ideal S128 .f32)
    (v9 : FVec Ideal S128x129 .f32) (p : Fin 2000) (h : Fin 128) :
    hidV v0 v3 v6 v8 v9 (ix2 p h)
      = ((∑ k : Fin 129, v0 (ix2 p k) * v6 (ix2 h k)) + v8 (ix1 h)) + ∑ k : Fin 129, v3 (ix2 p k) * v9 (ix2 h k) := by
  unfold hidV
  refine congrArg₂ (· + ·) (congrArg₂ (· + ·) ?_ (bias128 v8 p h)) ?_
  · refine (mm129 _ _ p h).trans (Finset.sum_congr rfl fun k _ => ?_)
    rw [tr129, truncf_apply, truncf_apply, shapeCast_self]
  · refine (mm129 _ _ p h).trans (Finset.sum_congr rfl fun k _ => ?_)
    rw [tr129, truncf_apply, truncf_apply, shapeCast_self]

/-- The head's hidden block at (p, c). -/
theorem actV_apply (hid : FVec Ideal S2000x128 .f32) (v11 : FVec Ideal S128x128 .f32) (v13 : FVec Ideal S128 .f32)
    (p : Fin 2000) (c : Fin 128) :
    actV hid v11 v13 (ix2 p c) = max ((∑ h : Fin 128, hid (ix2 p h) * v11 (ix2 c h)) + v13 (ix1 c)) 0 := by
  unfold actV
  refine congrArg₂ max (congrArg₂ (· + ·) ?_ (bias128 v13 p c)) Ideal.ofBits_zero_f32
  refine (mm128 _ _ p c).trans (Finset.sum_congr rfl fun k _ => ?_)
  rw [tr128, truncf_apply, truncf_apply]

/-- The output block at (p, 0). -/
theorem outV_apply (act : FVec Ideal S2000x128 .f32) (v14 : FVec Ideal S1x128 .f32) (v16 : FVec Ideal S1 .f32)
    (p : Fin 2000) :
    outV act v14 v16 (ix2 p (0 : Fin 1))
      = (∑ c : Fin 128, act (ix2 p c) * v14 (ix2 (0 : Fin 1) c)) + v16 (ix1 (0 : Fin 1)) := by
  unfold outV
  refine congrArg₂ (· + ·) ?_ (bias1 v16 p 0)
  refine (mm1 _ _ p 0).trans (Finset.sum_congr rfl fun k _ => ?_)
  rw [tr1, truncf_apply, truncf_apply]

/-- THE BODY'S TERM AT AN ENTRY: entry (p, 0) of the output block, as sums over the loaded blocks' entries. -/
theorem pay_apply (v0 v3 : FVec Ideal S2000x129 .f32) (v6 : FVec Ideal S128x129 .f32) (v8 : FVec Ideal S128 .f32)
    (v9 : FVec Ideal S128x129 .f32) (v11 : FVec Ideal S128x128 .f32) (v13 : FVec Ideal S128 .f32)
    (v14 : FVec Ideal S1x128 .f32) (v16 : FVec Ideal S1 .f32) (p : Fin 2000) :
    k1_pay1 (F := Ideal) v0 v3 v6 v8 v9 v11 v13 v14 v16 (ix2 p (0 : Fin 1))
      = (∑ c : Fin 128,
          (max ((∑ h : Fin 128,
              (((∑ k : Fin 129, v0 (ix2 p k) * v6 (ix2 h k)) + v8 (ix1 h)) + ∑ k : Fin 129, v3 (ix2 p k) * v9 (ix2 h k))
                * v11 (ix2 c h)) + v13 (ix1 c)) 0) * v14 (ix2 (0 : Fin 1) c))
        + v16 (ix1 (0 : Fin 1)) := by
  rw [pay_eq_layers, outV_apply]
  refine congrArg₂ (· + ·) (Finset.sum_congr rfl fun c _ => ?_) rfl
  rw [actV_apply]
  refine congrArg₂ (· * ·) (congrArg₂ max (congrArg₂ (· + ·) (Finset.sum_congr rfl fun h _ => ?_) rfl) rfl) rfl
  rw [hidV_apply]

end Cert.KernelIdeal.OutBody

end
-- ==== Proof.KOut.lean ====
/-
  The second kernel region's output array, at any contents V of the buffers when the region is entered.

  The region runs the body at 100 points; point t loads rows 2000 t … 2000 t + 1999 of the neighbours' mean and of
  the node features (all 129 columns) and the seven weight and bias arrays whole, and writes back rows
  2000 t … 2000 t + 1999 of the one-column output. Row p of that block is the specification's output of node
  2000 t + p: the body's term at entry (p, 0) is the same sums over the same entries, because entry (p, k) of a row
  block is entry (2000 t + p, k) of its array (a block's coordinate is block index times block size plus the
  coordinate inside the block) and a whole-array block is the array. Node r lies in the block of point r / 2000, so the
  blocks cover the array, and the array ends holding the specification's output at every node.
-/
import proofs.«133648_j59365037965463_1_alg».proof.Proof.Gen.KernelIdeal.Frame
import proofs.«133648_j59365037965463_1_alg».proof.Proof.Spec
import proofs.«133648_j59365037965463_1_alg».proof.Proof.KOutBody
import Idealize.ShloMosaic.Lib.Pipeline.Value
import Idealize.ShloMosaic.Lib.ValueIdx
import Idealize.ShloMosaic.Lib.Tactic

noncomputable section

namespace Cert.KernelIdeal.OutValue

open Idealize.ShloMosaic Idealize.ShloMosaic.TcCoe Idealize.ShloMosaic.ValueIdx Idealize.SL.Sem
open Idealize.ShloMosaic.Pipeline (Dat)
open Cert.KernelIdeal Cert.KernelIdeal.Gen
open Cert.SageSpec (Arr)

/-! ## One row of a block, over the arrays' entries -/

/-- Entry (p, 0) of the body's term is the specification's output at node r, when row p of the two row blocks is row
    r of the two node arrays. -/
theorem row_value (x0 x1 : Vec Ideal S2000x129 .f32) (x2 : Vec Ideal S128x129 .f32) (x3 : Vec Ideal S128 .f32)
    (x4 : Vec Ideal S128x129 .f32) (x5 : Vec Ideal S128x128 .f32) (x6 : Vec Ideal S128 .f32)
    (x7 : Vec Ideal S1x128 .f32) (x8 : Vec Ideal S1 .f32) (agg xi : Arr ⟨2, ![200000, 129]⟩)
    (p : Fin 2000) (r : Fin 200000)
    (h0 : ∀ k : Fin 129, x0 (ix2 p k) = agg (ix2 r k)) (h1 : ∀ k : Fin 129, x1 (ix2 p k) = xi (ix2 r k)) :
    k1_pay1 (F := Ideal) x0 x1 x2 x3 x4 x5 x6 x7 x8 (ix2 p (0 : Fin 1))
      = Cert.SageSpec.outAt agg xi x2 x3 x4 x5 x6 x7 x8 r := by
  rw [Cert.KernelIdeal.OutBody.pay_apply]
  unfold Cert.SageSpec.outAt Cert.SageSpec.actAt Cert.SageSpec.hidAt
  simp only [h0, h1]

/-- The same at an index j of the block and an index i of the array whose rows correspond, the weight and bias
    blocks being their arrays. -/
theorem block_value (x0 x1 : Vec Ideal S2000x129 .f32) (x2 : Vec Ideal S128x129 .f32) (x3 : Vec Ideal S128 .f32)
    (x4 : Vec Ideal S128x129 .f32) (x5 : Vec Ideal S128x128 .f32) (x6 : Vec Ideal S128 .f32)
    (x7 : Vec Ideal S1x128 .f32) (x8 : Vec Ideal S1 .f32) (agg xi : Arr ⟨2, ![200000, 129]⟩)
    (Wl : Arr ⟨2, ![128, 129]⟩) (bl : Arr ⟨1, ![128]⟩) (Wr : Arr ⟨2, ![128, 129]⟩) (W2 : Arr ⟨2, ![128, 128]⟩)
    (b2 : Arr ⟨1, ![128]⟩) (W3 : Arr ⟨2, ![1, 128]⟩) (b3 : Arr ⟨1, ![1]⟩)
    (h2 : x2 = Wl) (h3 : x3 = bl) (h4 : x4 = Wr) (h5 : x5 = W2) (h6 : x6 = b2) (h7 : x7 = W3) (h8 : x8 = b3)
    (j : S2000x1.Idx) (i : S200000x1.Idx)
    (h0 : ∀ k : Fin 129, x0 (ix2 (⟨(j 0).val, (j 0).isLt⟩ : Fin 2000) k)
      = agg (ix2 (⟨(i 0).val, (i 0).isLt⟩ : Fin 200000) k))
    (h1 : ∀ k : Fin 129, x1 (ix2 (⟨(j 0).val, (j 0).isLt⟩ : Fin 2000) k)
      = xi (ix2 (⟨(i 0).val, (i 0).isLt⟩ : Fin 200000) k)) :
    k1_pay1 (F := Ideal) x0 x1 x2 x3 x4 x5 x6 x7 x8 j = Cert.SageSpec.outOf agg xi Wl bl Wr W2 b2 W3 b3 i := by
  subst h2 h3 h4 h5 h6 h7 h8
  obtain ⟨p, q, rfl⟩ : ∃ (p : Fin 2000) (q : Fin 1), j = ix2 p q := ⟨j 0, j 1, eq_ix2 j⟩
  obtain rfl : q = 0 := Subsingleton.elim q 0
  exact row_value x0 x1 x2 x3 x4 x5 x6 x7 x8 agg xi p ⟨(i 0).val, (i 0).isLt⟩ h0 h1

/-! ## The region's blocks -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps, decided once over the 100 points: the two row-block windows and the output window are at
    block (t, 0) at point t; the weight and bias windows stay at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0
    ∧ win1_8.index t (0 : Fin 1) = 0
    ∧ win1_9.index t (0 : Fin 2) = t.val ∧ win1_9.index t (1 : Fin 2) = 0 :=
  (by decide +kernel : ∀ t : Fin grid1.N, _)

/-- Window 0's block at point t is rows 2000 t … 2000 t + 1999 of its array, every column. -/
theorem blk0_apply (c : Dev nD) (t : Fin cfg1.N) (p : Fin 2000) (k : Fin 129) (r : Fin 200000)
    (hr : r.val = t.val * 2000 + p.val) :
    (iblk1 V c 0 t : Vec Ideal S2000x129 .f32) (ix2 p k) = (V c main_v41 : S200000x129.Idx → EReal) (ix2 r k) := by
  obtain ⟨e0, e1, -⟩ := idx_facts t
  unfold iblk1
  rw [View.read_apply]
  show V c main_v41 _ = V c main_v41 _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 129 + 1 * k.val = k.val; rw [e1]; omega

/-- Window 1's block at point t is rows 2000 t … 2000 t + 1999 of its array, every column. -/
theorem blk1_apply (c : Dev nD) (t : Fin cfg1.N) (p : Fin 2000) (k : Fin 129) (r : Fin 200000)
    (hr : r.val = t.val * 2000 + p.val) :
    (iblk1 V c 1 t : Vec Ideal S2000x129 .f32) (ix2 p k) = (V c main_v26 : S200000x129.Idx → EReal) (ix2 r k) := by
  obtain ⟨-, -, e0, e1, -⟩ := idx_facts t
  unfold iblk1
  rw [View.read_apply]
  show V c main_v26 _ = V c main_v26 _
  congr 1
  funext a
  apply Fin.ext
  match a with
  | ⟨0, _⟩ => show win1_1.index t (0 : Fin 2) * 2000 + 1 * p.val = r.val; rw [e0, hr]; omega
  | ⟨1, _⟩ => show win1_1.index t (1 : Fin 2) * 129 + 1 * k.val = k.val; rw [e1]; omega

/-- Window 2's block is its whole array at every point: the block index is zero on every axis. -/
theorem blk2_eq (c : Dev nD) (t : Fin cfg1.N) :
    (iblk1 V c 2 t : Vec Ideal S128x129 .f32) = (V c main_arg4 : S128x129.Idx → EReal) := by
  obtain ⟨-, -, -, -, e0, e1, -⟩ := idx_facts t
  funext j
  unfold iblk1
  rw [View.read_apply]
  show V c main_arg4 _ = V c main_arg4 j
  congr 1
  funext a
  apply Fin.ext
  match a with
  | ⟨0, _⟩ => show win1_2.index t (0 : Fin 2) * 128 + 1 * (j 0).val = (j 0).val; rw [e0]; omega
  | ⟨1, _⟩ => show win1_2.index t (1 : Fin 2) * 129 + 1 * (j 1).val = (j 1).val; rw [e1]; omega

/-- Window 3's block is its whole array at every point: the block index is zero on every axis. -/
theorem blk3_eq (c : Dev nD) (t : Fin cfg1.N) :
    (iblk1 V c 3 t : Vec Ideal S128 .f32) = (V c main_arg5 : S128.Idx → EReal) := by
  obtain ⟨-, -, -, -, -, -, e0, -⟩ := idx_facts t
  funext j
  unfold iblk1
  rw [View.read_apply]
  show V c main_arg5 _ = V c main_arg5 j
  congr 1
  funext a
  apply Fin.ext
  match a with
  | ⟨0, _⟩ => show win1_3.index t (0 : Fin 1) * 128 + 1 * (j 0).val = (j 0).val; rw [e0]; omega

/-- Window 4's block is its whole array at every point: the block index is zero on every axis. -/
theorem blk4_eq (c : Dev nD) (t : Fin cfg1.N) :
    (iblk1 V c 4 t : Vec Ideal S128x129 .f32) = (V c main_arg6 : S128x129.Idx → EReal) := by
  obtain ⟨-, -, -, -, -, -, -, e0, e1, -⟩ := idx_facts t
  funext j
  unfold iblk1
  rw [View.read_apply]
  show V c main_arg6 _ = V c main_arg6 j
  congr 1
  funext a
  apply Fin.ext
  match a with
  | ⟨0, _⟩ => show win1_4.index t (0 : Fin 2) * 128 + 1 * (j 0).val = (j 0).val; rw [e0]; omega
  | ⟨1, _⟩ => show win1_4.index t (1 : Fin 2) * 129 + 1 * (j 1).val = (j 1).val; rw [e1]; omega

/-- Window 5's block is its whole array at every point: the block index is zero on every axis. -/
theorem blk5_eq (c : Dev nD) (t : Fin cfg1.N) :
    (iblk1 V c 5 t : Vec Ideal S128x128 .f32) = (V c main_arg7 : S128x128.Idx → EReal) := by
  obtain ⟨-, -, -, -, -, -, -, -, -, e0, e1, -⟩ := idx_facts t
  funext j
  unfold iblk1
  rw [View.read_apply]
  show V c main_arg7 _ = V c main_arg7 j
  congr 1
  funext a
  apply Fin.ext
  match a with
  | ⟨0, _⟩ => show win1_5.index t (0 : Fin 2) * 128 + 1 * (j 0).val = (j 0).val; rw [e0]; omega
  | ⟨1, _⟩ => show win1_5.index t (1 : Fin 2) * 128 + 1 * (j 1).val = (j 1).val; rw [e1]; omega

/-- Window 6's block is its whole array at every point: the block index is zero on every axis. -/
theorem blk6_eq (c : Dev nD) (t : Fin cfg1.N) :
    (iblk1 V c 6 t : Vec Ideal S128 .f32) = (V c main_arg8 : S128.Idx → EReal) := by
  obtain ⟨-, -, -, -, -, -, -, -, -, -, -, e0, -⟩ := idx_facts t
  funext j
  unfold iblk1
  rw [View.read_apply]
  show V c main_arg8 _ = V c main_arg8 j
  congr 1
  funext a
  apply Fin.ext
  match a with
  | ⟨0, _⟩ => show win1_6.index t (0 : Fin 1) * 128 + 1 * (j 0).val = (j 0).val; rw [e0]; omega

/-- Window 7's block is its whole array at every point: the block index is zero on every axis. -/
theorem blk7_eq (c : Dev nD) (t : Fin cfg1.N) :
    (iblk1 V c 7 t : Vec Ideal S1x128 .f32) = (V c main_arg9 : S1x128.Idx → EReal) := by
  obtain ⟨-, -, -, -, -, -, -, -, -, -, -, -, e0, e1, -⟩ := idx_facts t
  funext j
  unfold iblk1
  rw [View.read_apply]
  show V c main_arg9 _ = V c main_arg9 j
  congr 1
  funext a
  apply Fin.ext
  match a with
  | ⟨0, _⟩ => show win1_7.index t (0 : Fin 2) * 1 + 1 * (j 0).val = (j 0).val; rw [e0]; omega
  | ⟨1, _⟩ => show win1_7.index t (1 : Fin 2) * 128 + 1 * (j 1).val = (j 1).val; rw [e1]; omega

/-- Window 8's block is its whole array at every point: the block index is zero on every axis. -/
theorem blk8_eq (c : Dev nD) (t : Fin cfg1.N) :
    (iblk1 V c 8 t : Vec Ideal S1 .f32) = (V c main_arg10 : S1.Idx → EReal) := by
  obtain ⟨-, -, -, -, -, -, -, -, -, -, -, -, -, -, e0, -⟩ := idx_facts t
  funext j
  unfold iblk1
  rw [View.read_apply]
  show V c main_arg10 _ = V c main_arg10 j
  congr 1
  funext a
  apply Fin.ext
  match a with
  | ⟨0, _⟩ => show win1_8.index t (0 : Fin 1) * 1 + 1 * (j 0).val = (j 0).val; rw [e0]; omega

/-! ## What a point writes back -/

/-- What point t writes back is block t of the specification's output array. -/
theorem flushed_eq (c : Dev nD) (t : Fin cfg1.N) :
    (dat1 (F := Ideal) V c).flushed 9 t
      = ((cfg1.win 9).blk t).view.read (Elt Ideal) (Cert.SageSpec.outOf (V c main_v41) (V c main_v26) (V c main_arg4) (V c main_arg5) (V c main_arg6) (V c main_arg7) (V c main_arg8) (V c main_arg9) (V c main_arg10)) := by
  show (cfg1.win 9).cut (grid1.coords t) ((dat1 V c).after 9 t) = _
  rw [after1_9]
  unfold out1_9
  rw [View.canon_unit_zero hz2]
  simp only [View.ld_unit_zero (S := S2000x129) hz2, View.ld_unit_zero (S := S128x129) hz2,
    View.ld_unit_zero (S := S128) hz1, View.ld_unit_zero (S := S128x128) hz2, View.ld_unit_zero (S := S1x128) hz2,
    View.ld_unit_zero (S := S1) hz1]
  obtain ⟨-, -, -, -, -, -, -, -, -, -, -, -, -, -, -, e0, e1⟩ := idx_facts t
  funext j
  rw [View.read_apply]
  refine block_value (iblk1 V c 0 t) (iblk1 V c 1 t) (iblk1 V c 2 t) (iblk1 V c 3 t) (iblk1 V c 4 t) (iblk1 V c 5 t)
    (iblk1 V c 6 t) (iblk1 V c 7 t) (iblk1 V c 8 t) (V c main_v41) (V c main_v26) (V c main_arg4) (V c main_arg5)
    (V c main_arg6) (V c main_arg7) (V c main_arg8) (V c main_arg9) (V c main_arg10)
    (blk2_eq V c t) (blk3_eq V c t) (blk4_eq V c t) (blk5_eq V c t) (blk6_eq V c t) (blk7_eq V c t) (blk8_eq V c t)
    j (((cfg1.win 9).blk t).view.emb j) (fun k => ?_) (fun k => ?_)
  · refine blk0_apply V c t _ k _ ?_
    show win1_9.index t (0 : Fin 2) * 2000 + 1 * (j 0).val = t.val * 2000 + (j 0).val
    rw [e0]; omega
  · refine blk1_apply V c t _ k _ ?_
    show win1_9.index t (0 : Fin 2) * 2000 + 1 * (j 0).val = t.val * 2000 + (j 0).val
    rw [e0]; omega

/-! ## The cover, and the array -/

/-- Node r's entry lies in the block of point r / 2000, which is written back. -/
theorem cover (i : S200000x1.Idx) :
    ∃ t : Fin cfg1.N, (cfg1.win 9).flush t = true ∧ i ∈ ((cfg1.win 9).blk t).view.set := by
  have hi0 : (i 0).val < 200000 := (i 0).isLt
  have hi1 : (i 1).val < 1 := (i 1).isLt
  have hN : cfg1.N = 100 := N_1
  have hlt : (i 0).val / 2000 < cfg1.N := by rw [hN]; omega
  obtain ⟨-, -, -, -, -, -, -, -, -, -, -, -, -, -, -, e0, e1⟩ := idx_facts ⟨(i 0).val / 2000, hlt⟩
  refine ⟨⟨(i 0).val / 2000, hlt⟩, flush1_9 _, ?_⟩
  show i ∈ ((View.whole main_v42).slice (win1_9.rect ⟨(i 0).val / 2000, hlt⟩)).set
  rw [View.set_slice_whole, Rect.mem_set_unit]
  intro a
  match a with
  | ⟨0, _⟩ =>
    show win1_9.index ⟨(i 0).val / 2000, hlt⟩ (0 : Fin 2) * 2000 ≤ (i 0).val
      ∧ (i 0).val < win1_9.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win1_9.index ⟨(i 0).val / 2000, hlt⟩ (1 : Fin 2) * 1 ≤ (i 1).val
      ∧ (i 1).val < win1_9.index ⟨(i 0).val / 2000, hlt⟩ (1 : Fin 2) * 1 + 1
    rw [e1]; omega

/-- THE OUTPUT ARRAY after the region's 100 points: the specification's output of the arrays the region found. -/
theorem region1_array (c : Dev nD) :
    (dat1 (F := Ideal) V c).arrAt 9 cfg1.N
      = Cert.SageSpec.outOf (V c main_v41) (V c main_v26) (V c main_arg4) (V c main_arg5) (V c main_arg6) (V c main_arg7) (V c main_arg8) (V c main_arg9) (V c main_arg10) :=
  (dat1 (F := Ideal) V c).arrAt_eq_of_cover 9
    (Cert.SageSpec.outOf (V c main_v41) (V c main_v26) (V c main_arg4) (V c main_arg5) (V c main_arg6) (V c main_arg7) (V c main_arg8) (V c main_arg9) (V c main_arg10))
    (fun t _ => flushed_eq V c t) cover

end Cert.KernelIdeal.OutValue

end
-- ==== Proof.XfpJoin.lean ====
/-
  The first stage's input, as the host joins it, is the specification's.

  The host takes columns 1..63 of the 64-column array x (a slice at column offset 1, 63 columns wide) and joins, as a
  64th column, the vector pm read as a one-column table. At column k < 63 the join reads the first piece at (r, k),
  which is x at (r, 1 + k); at column 63 it reads the second piece at (r, 0), which is pm at r. These are the two
  branches of the specification's entry.
-/
import proofs.«133648_j59365037965463_1_alg».proof.Proof.HostChain
import proofs.«133648_j59365037965463_1_alg».proof.Proof.Spec
import proofs.«133648_j59365037965463_1_alg».proof.Proof.Gen.KernelIdeal
import Idealize.ShloMosaic.Lib.Pipeline.Value
import Idealize.ShloMosaic.Lib.ValueIdx

noncomputable section

namespace Cert.KernelIdeal.XfpJoin

open Cert.KernelIdeal Cert.KernelIdeal.Facts₀ Idealize.ShloMosaic Idealize.ShloMosaic.ValueIdx

/-- Columns 1..63 of x joined with pm as a last column is the specification's first-stage input, entry by entry. -/
theorem joinPrice_eq (x : (⟨S200000x64, .f32⟩ : BufTy).Contents (Elt Ideal)) (pm : (⟨S200000, .f32⟩ : BufTy).Contents (Elt Ideal)) :
    Cert.KernelIdeal.HostChain.joinPrice (F := Ideal) x pm = Cert.SageSpec.xfpOf x pm := by
  funext i
  obtain ⟨r, k, rfl⟩ : ∃ (r : Fin 200000) (k : Fin 64), i = ix2 r k := ⟨i 0, i 1, eq_ix2 i⟩
  unfold HostChain.joinPrice
  show _ = Cert.SageSpec.xfpAt x pm r k
  unfold Cert.SageSpec.xfpAt
  by_cases hk : k.val < 63
  · rw [dif_pos hk]
    -- the column is in the first piece: the slice of x at (r, k), which is x at (r, 1 + k)
    refine (concatenate_pair_apply_left (t := S200000x64) (s₁ := S200000x63) (s₂ := S200000x1) (1 : Fin 2) _ _
      concatenates_S200000x63_S200000x1_S200000x64_d1 (ix2 r k) rfl (ix2 r (⟨k.val, hk⟩ : Fin 63)) (fun b => by
        match b with
        | ⟨0, _⟩ => rfl
        | ⟨1, _⟩ => rfl)).trans ?_
    exact extractStridedSlice_apply ![0, 1] x slices_S200000x64_S200000x63_0_1 (ix2 r (⟨k.val, hk⟩ : Fin 63))
      (ix2 r (⟨1 + k.val, by omega⟩ : Fin 64)) (fun a => by
        match a with
        | ⟨0, _⟩ => show r.val = 0 + r.val; omega
        | ⟨1, _⟩ => rfl)
  · rw [dif_neg hk]
    have hk63 : k.val = 63 := by have := k.isLt; omega
    -- the column is the second piece's only column: pm as a column at (r, 0), which is pm at r
    refine (concatenate_pair_apply_right (t := S200000x64) (s₁ := S200000x63) (s₂ := S200000x1) (1 : Fin 2) _ _
      concatenates_S200000x63_S200000x1_S200000x64_d1 (ix2 r k) rfl rfl (ix2 r (0 : Fin 1)) (fun b hb => by
        match b with
        | ⟨0, _⟩ => rfl
        | ⟨1, _⟩ => exact absurd rfl hb) (by show 0 + 63 = k.val; omega)).trans ?_
    exact broadcastInDim_apply ![0] bcast_S200000_S200000x1_0 pm (ix2 r (0 : Fin 1)) (ix1 r) (fun a => by
      match a with
      | ⟨0, _⟩ =>
        show r.val = if (200000 : Nat) = 1 then 0 else r.val
        split
        · omega
        · rfl)

end Cert.KernelIdeal.XfpJoin

end
-- ==== Proof.Result.lean ====
/-
  The one function of the eleven argument arrays that both programs compute.

  From x and the edge list: the mean price of each node's in-neighbours; with the first layer's weight and bias, the
  node features xi (a tanh layer over the features of x, and the mean price as a last column); the in-neighbour mean
  agg of xi over the same edge list; and, with the remaining weights and biases, the two-layer head over the graph
  convolution of agg and xi. Everything over the extended reals.
-/
import proofs.«133648_j59365037965463_1_alg».proof.Proof.HostChain
import proofs.«133648_j59365037965463_1_alg».proof.Proof.Spec

noncomputable section

namespace Cert.SageResult

open Cert.KernelIdeal Cert.KernelIdeal.HostChain Cert.SageSpec Idealize.ShloMosaic

/-- The node features as a function of the arguments. -/
def xiFrom (x : (⟨S200000x64, .f32⟩ : BufTy).Contents (Elt Ideal)) (ei : (⟨S2x1600000, .i32⟩ : BufTy).Contents (Elt Ideal))
    (W1 : (⟨S128x63, .f32⟩ : BufTy).Contents (Elt Ideal)) (b1 : (⟨S128, .f32⟩ : BufTy).Contents (Elt Ideal)) :
    (⟨S200000x129, .f32⟩ : BufTy).Contents (Elt Ideal) :=
  xiOf (xfpOf x (pmeanOf (F := Ideal) (priceK (F := Ideal) x ei) ei)) W1 b1

/-- The result as a function of the arguments. -/
def resultOf (x : (⟨S200000x64, .f32⟩ : BufTy).Contents (Elt Ideal)) (ei : (⟨S2x1600000, .i32⟩ : BufTy).Contents (Elt Ideal))
    (W1 : (⟨S128x63, .f32⟩ : BufTy).Contents (Elt Ideal)) (b1 : (⟨S128, .f32⟩ : BufTy).Contents (Elt Ideal))
    (Wl : (⟨S128x129, .f32⟩ : BufTy).Contents (Elt Ideal)) (bl : (⟨S128, .f32⟩ : BufTy).Contents (Elt Ideal))
    (Wr : (⟨S128x129, .f32⟩ : BufTy).Contents (Elt Ideal)) (W2 : (⟨S128x128, .f32⟩ : BufTy).Contents (Elt Ideal))
    (b2 : (⟨S128, .f32⟩ : BufTy).Contents (Elt Ideal)) (W3 : (⟨S1x128, .f32⟩ : BufTy).Contents (Elt Ideal))
    (b3 : (⟨S1, .f32⟩ : BufTy).Contents (Elt Ideal)) : (⟨S200000x1, .f32⟩ : BufTy).Contents (Elt Ideal) :=
  outOf (aggOf (F := Ideal) (xiFrom x ei W1 b1) ei) (xiFrom x ei W1 b1) Wl bl Wr W2 b2 W3 b3

end Cert.SageResult

end
-- ==== Proof.KValue.lean ====
/-
  The kernel program's result is the common function of its arguments.

  The result array holds what the second stage's write-backs leave: the head over the graph convolution of the
  stage's two row-block inputs and six weights. Its first input is the in-neighbour mean of the first stage's output,
  its second that output itself; the first stage's output is the node features of its own input, the features of x
  joined with the mean price. Chained, the result is `resultOf` of the eleven arguments; and so every run of the
  program ends with the result array at that value and the arguments as launched.
-/
import proofs.«133648_j59365037965463_1_alg».proof.Proof.KRun
import proofs.«133648_j59365037965463_1_alg».proof.Proof.KHost
import proofs.«133648_j59365037965463_1_alg».proof.Proof.KXi
import proofs.«133648_j59365037965463_1_alg».proof.Proof.KOut
import proofs.«133648_j59365037965463_1_alg».proof.Proof.XfpJoin
import proofs.«133648_j59365037965463_1_alg».proof.Proof.Result

set_option maxRecDepth 16384

noncomputable section

namespace Cert.KernelIdeal.KValue

open Cert.KernelIdeal Cert.KernelIdeal.Gen Cert.KernelIdeal.HostChain Cert.KernelIdeal.HostValue Cert.SageResult
open Idealize.ShloMosaic Idealize.ShloMosaic.TcCoe Idealize.SL.Sem

variable (m : (ℓ : Loc nD τ sig) → Buf (Elt Ideal) ℓ) (ρ : Dev nD → PrngReg)

/-- The first stage's output array, after the stage, is the node features of the arguments. -/
theorem xi_value (c : Dev nD) :
    W2 m ρ c (Proc.devRef .tc main_v26)
      = xiFrom (m ((c.tc : Thread nD τ).loc main_arg0)) (m ((c.tc : Thread nD τ).loc main_arg1))
          (m ((c.tc : Thread nD τ).loc main_arg2)) (m ((c.tc : Thread nD τ).loc main_arg3)) := by
  rw [mid_xi, Cert.KernelIdeal.XiValue.region0_array (V1 m ρ) c]
  show Cert.SageSpec.xiOf (W1 m ρ c (Proc.devRef .tc main_v25)) (W1 m ρ c (Proc.devRef .tc main_arg2))
    (W1 m ρ c (Proc.devRef .tc main_arg3)) = _
  rw [first_input, first_weight, first_bias]
  unfold xfpK xiFrom
  rw [Cert.KernelIdeal.XfpJoin.joinPrice_eq]

/-- The result array, after the run's last segment, is the common function of the arguments. -/
theorem result_value (c : Dev nD) :
    W4 m ρ c (Proc.devRef .tc main_v42) = resultOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [Cert.KernelIdeal.NamedRun.W4_result, Cert.KernelIdeal.OutValue.region1_array (V3 m ρ) c]
  show Cert.SageSpec.outOf (W3 m ρ c (Proc.devRef .tc main_v41)) (W3 m ρ c (Proc.devRef .tc main_v26))
    (W3 m ρ c (Proc.devRef .tc main_arg4)) (W3 m ρ c (Proc.devRef .tc main_arg5)) (W3 m ρ c (Proc.devRef .tc main_arg6))
    (W3 m ρ c (Proc.devRef .tc main_arg7)) (W3 m ρ c (Proc.devRef .tc main_arg8)) (W3 m ρ c (Proc.devRef .tc main_arg9))
    (W3 m ρ c (Proc.devRef .tc main_arg10)) = _
  rw [second_agg, second_xi, xi_value, second_arg4, second_arg5, second_arg6, second_arg7, second_arg8, second_arg9,
    second_arg10]
  rfl

/-- Every weakly fair execution of the program ends with the result array at the common function of the arguments
    and the arguments as launched. -/
theorem run_value : θ_run defs (onTc (τ := τ) (main (F := Ideal))) ⟨m, fun _ => 0, ρ⟩ (fun r => ∀ c : Dev nD,
      r.2.mem ((c.tc : Thread nD τ).loc main_v42) = resultOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result_value m ρ c), (h c).2⟩)
    (Cert.KernelIdeal.NamedRun.run_named (F := Ideal) m ρ)

end Cert.KernelIdeal.KValue

end
-- ==== Proof.RefXi.lean ====
/-
  The reference's node features are the specification's.

  The reference builds the node features in two pieces and joins them along the columns. The first piece, 128 columns
  wide, is, at (r, j), the hyperbolic tangent of the row r of the input's columns 1..63 against row j of W1 plus b1(j):
  a slice, a transposed weight, a contraction over 63 terms, a bias row broadcast down the rows, a sum, a tanh, each
  read at one index. The second piece is the mean price as one column. Column j < 128 of the join is column j of the
  first piece, column 128 is the second piece's only column; the specification's entry makes the same case split.
  The mean price itself is left as the array it is: nothing here looks inside it.
-/
import proofs.«133648_j59365037965463_1_alg».proof.Proof.Gen.ReferenceIdeal.Read
import proofs.«133648_j59365037965463_1_alg».proof.Proof.Spec

noncomputable section

namespace Cert.ReferenceIdeal.RefValue

open Cert.ReferenceIdeal Cert.ReferenceIdeal.Read Idealize.ShloMosaic Idealize.ShloMosaic.ValueIdx Cert.SageSpec

/-- The first stage's input at a feature column k < 63 is column 1 + k of x. -/
theorem xfpOf_feature (x : Arr ⟨2, ![200000, 64]⟩) (pm : Arr ⟨1, ![200000]⟩) (r : Fin 200000) (k : Fin 63) :
    xfpOf x pm (ix2 r (⟨k.val, by omega⟩ : Fin 64)) = x (ix2 r (⟨1 + k.val, by omega⟩ : Fin 64)) := by
  show xfpAt x pm r ⟨k.val, _⟩ = _
  unfold xfpAt
  rw [dif_pos (show k.val < 63 from k.isLt)]

/-- The first stage's input at column 63 is the mean price. -/
theorem xfpOf_price (x : Arr ⟨2, ![200000, 64]⟩) (pm : Arr ⟨1, ![200000]⟩) (r : Fin 200000) :
    xfpOf x pm (ix2 r (⟨63, by decide⟩ : Fin 64)) = pm (ix1 r) := by
  show xfpAt x pm r ⟨63, _⟩ = _
  unfold xfpAt
  rw [dif_neg (Nat.lt_irrefl 63)]

/-- The tanh piece at (r, j): tanh of row r of x's columns 1..63 against row j of W1, plus b1(j). -/
theorem tanh_piece_apply (x0 : (⟨S200000x64, .f32⟩ : BufTy).Contents (Elt Ideal))
    (x2 : (⟨S128x63, .f32⟩ : BufTy).Contents (Elt Ideal)) (x3 : (⟨S128, .f32⟩ : BufTy).Contents (Elt Ideal))
    (r : Fin 200000) (j : Fin 128) :
    val_main_v31 (F := Ideal) x0 x2 x3 (ix2 r j)
      = Ideal.tanh ((∑ k : Fin 63, x0 (ix2 r (⟨1 + k.val, by omega⟩ : Fin 64)) * x2 (ix2 j k)) + x3 (ix1 j)) := by
  have e4 : ∀ k : Fin 63, idx_main_v4 (lidx_main_v6 (ix2 r j) k) = ix2 r (⟨1 + k.val, by omega⟩ : Fin 64) :=
    fun k => funext fun a => Fin.ext (by match a with | ⟨0, _⟩ => rfl | ⟨1, _⟩ => rfl)
  have e5 : ∀ k : Fin 63, idx_main_v5 (ridx_main_v6 (ix2 r j) k) = ix2 j k :=
    fun k => funext fun a => Fin.ext (by match a with | ⟨0, _⟩ => rfl | ⟨1, _⟩ => rfl)
  have e7 : idx_main_v7 (idx_main_v8 (ix2 r j)) = ix1 j :=
    funext fun a => Fin.ext (by match a with | ⟨0, _⟩ => rfl)
  rw [val_main_v31_apply, val_main_v9_apply, val_main_v6_apply, val_main_v8_apply, val_main_v7_apply, e7]
  simp only [val_main_v4_apply, val_main_v5_apply, e4, e5, Ideal.addf_def, Ideal.hostUnary_tanh_def]

/-- The mean-price piece at (r, 0) is the mean price at r. -/
theorem price_piece_apply (x0 : (⟨S200000x64, .f32⟩ : BufTy).Contents (Elt Ideal))
    (x1 : (⟨S2x1600000, .i32⟩ : BufTy).Contents (Elt Ideal)) (r : Fin 200000) (u : Fin 1) :
    val_main_v32 (F := Ideal) x0 x1 (ix2 r u) = val_main_v30 (F := Ideal) x0 x1 (ix1 r) := by
  rw [val_main_v32_apply]
  exact congrArg _ (funext fun a => Fin.ext (by match a with | ⟨0, _⟩ => rfl))

/-- The joined array at a column below 128 is the tanh piece there. -/
theorem xi_left (x0 : (⟨S200000x64, .f32⟩ : BufTy).Contents (Elt Ideal))
    (x1 : (⟨S2x1600000, .i32⟩ : BufTy).Contents (Elt Ideal)) (x2 : (⟨S128x63, .f32⟩ : BufTy).Contents (Elt Ideal))
    (x3 : (⟨S128, .f32⟩ : BufTy).Contents (Elt Ideal)) (r : Fin 200000) (j : Fin 129) (h : j.val < 128) :
    val_main_v33 (F := Ideal) x0 x1 x2 x3 (ix2 r j) = val_main_v31 (F := Ideal) x0 x2 x3 (ix2 r (⟨j.val, h⟩ : Fin 128)) := by
  unfold val_main_v33
  generalize val_main_v31 (F := Ideal) x0 x2 x3 = y1
  generalize val_main_v32 (F := Ideal) x0 x1 = y2
  exact concatenate_pair_apply_left 1 y1 y2 _ (ix2 r j) rfl (ix2 r (⟨j.val, h⟩ : Fin 128))
    (fun b => by match b with | ⟨0, _⟩ => rfl | ⟨1, _⟩ => rfl)

/-- The joined array at column 128 is the mean-price piece's only column. -/
theorem xi_right (x0 : (⟨S200000x64, .f32⟩ : BufTy).Contents (Elt Ideal))
    (x1 : (⟨S2x1600000, .i32⟩ : BufTy).Contents (Elt Ideal)) (x2 : (⟨S128x63, .f32⟩ : BufTy).Contents (Elt Ideal))
    (x3 : (⟨S128, .f32⟩ : BufTy).Contents (Elt Ideal)) (r : Fin 200000) (j : Fin 129) (h : ¬ j.val < 128) :
    val_main_v33 (F := Ideal) x0 x1 x2 x3 (ix2 r j) = val_main_v32 (F := Ideal) x0 x1 (ix2 r (0 : Fin 1)) := by
  unfold val_main_v33
  generalize val_main_v31 (F := Ideal) x0 x2 x3 = y1
  generalize val_main_v32 (F := Ideal) x0 x1 = y2
  refine concatenate_pair_apply_right 1 y1 y2 _ (ix2 r j) rfl rfl (ix2 r (0 : Fin 1)) ?_ ?_
  · intro b hb
    match b with
    | ⟨0, _⟩ => rfl
    | ⟨1, _⟩ => exact absurd rfl hb
  · have hj : j.val < 129 := j.isLt
    show 0 + 128 = j.val
    omega

/-- The reference's node features are the specification's, the mean price being the reference's own. -/
theorem ref_xi (x0 : (⟨S200000x64, .f32⟩ : BufTy).Contents (Elt Ideal))
    (x1 : (⟨S2x1600000, .i32⟩ : BufTy).Contents (Elt Ideal)) (x2 : (⟨S128x63, .f32⟩ : BufTy).Contents (Elt Ideal))
    (x3 : (⟨S128, .f32⟩ : BufTy).Contents (Elt Ideal)) :
    val_main_v33 (F := Ideal) x0 x1 x2 x3
      = Cert.SageSpec.xiOf (Cert.SageSpec.xfpOf x0 (val_main_v30 (F := Ideal) x0 x1)) x2 x3 := by
  funext i
  obtain ⟨r, j, rfl⟩ : ∃ (r : Fin 200000) (j : Fin 129), i = ix2 r j := ⟨i 0, i 1, eq_ix2 i⟩
  show _ = xiAt (xfpOf x0 (val_main_v30 (F := Ideal) x0 x1)) x2 x3 r j
  unfold xiAt
  by_cases h : j.val < 128
  · rw [dif_pos h, xi_left x0 x1 x2 x3 r j h, tanh_piece_apply]
    simp only [xfpOf_feature]
  · rw [dif_neg h, xi_right x0 x1 x2 x3 r j h, price_piece_apply, xfpOf_price]

end Cert.ReferenceIdeal.RefValue

end
-- ==== Proof.RefOut.lean ====
/-
  The reference's output is the specification's head over the reference's own aggregate and node features.

  After the node features and their in-neighbour mean, the reference is a chain of dense layers, each read at one
  index: the graph convolution's unit h at node r is the mean's row r against row h of Wl (the weight enters
  transposed, so the contraction runs along its second axis) plus bl(h), plus the features' row r against row h of
  Wr; the head's unit c is the rectifier, the maximum with the zero word, of the units' row against row c of W2 plus
  b2(c); the output is the rectified row against W3's only row plus b3's only entry. Each layer below is one lemma
  over the previous one. The aggregate and the node features stay the arrays they are: nothing here looks inside them.
-/
import proofs.«133648_j59365037965463_1_alg».proof.Proof.Gen.ReferenceIdeal.Read
import proofs.«133648_j59365037965463_1_alg».proof.Proof.Spec

noncomputable section

namespace Cert.ReferenceIdeal.RefValue

open Cert.ReferenceIdeal Cert.ReferenceIdeal.Read Idealize.ShloMosaic Idealize.ShloMosaic.ValueIdx Cert.SageSpec

/-- The graph convolution's unit h at node r, as the reference computes it, is the specification's. -/
theorem ref_hid (x0 : (⟨S200000x64, .f32⟩ : BufTy).Contents (Elt Ideal))
    (x1 : (⟨S2x1600000, .i32⟩ : BufTy).Contents (Elt Ideal)) (x2 : (⟨S128x63, .f32⟩ : BufTy).Contents (Elt Ideal))
    (x3 : (⟨S128, .f32⟩ : BufTy).Contents (Elt Ideal))
    (x4 : (⟨S128x129, .f32⟩ : BufTy).Contents (Elt Ideal)) (x5 : (⟨S128, .f32⟩ : BufTy).Contents (Elt Ideal))
    (x6 : (⟨S128x129, .f32⟩ : BufTy).Contents (Elt Ideal)) (r : Fin 200000) (h : Fin 128) :
    val_main_v56 (F := Ideal) x0 x1 x2 x3 x4 x5 x6 (ix2 r h)
      = hidAt (val_main_v48 (F := Ideal) x0 x1 x2 x3) (val_main_v33 (F := Ideal) x0 x1 x2 x3) x4 x5 x6 r h := by
  have el : ∀ k : Fin 129, lidx_main_v50 (ix2 r h) k = ix2 r k := fun k => funext fun a => Fin.ext (by match a with | ⟨0, _⟩ => rfl | ⟨1, _⟩ => rfl)
  have er : ∀ k : Fin 129, idx_main_v49 (ridx_main_v50 (ix2 r h) k) = ix2 h k := fun k => funext fun a => Fin.ext (by match a with | ⟨0, _⟩ => rfl | ⟨1, _⟩ => rfl)
  have el' : ∀ k : Fin 129, lidx_main_v55 (ix2 r h) k = ix2 r k := fun k => funext fun a => Fin.ext (by match a with | ⟨0, _⟩ => rfl | ⟨1, _⟩ => rfl)
  have er' : ∀ k : Fin 129, idx_main_v54 (ridx_main_v55 (ix2 r h) k) = ix2 h k := fun k => funext fun a => Fin.ext (by match a with | ⟨0, _⟩ => rfl | ⟨1, _⟩ => rfl)
  have eb : idx_main_v51 (idx_main_v52 (ix2 r h)) = ix1 h := funext fun a => Fin.ext (by match a with | ⟨0, _⟩ => rfl)
  unfold hidAt
  rw [val_main_v56_apply, val_main_v53_apply, val_main_v50_apply, val_main_v55_apply, val_main_v52_apply,
    val_main_v51_apply, eb]
  generalize val_main_v48 (F := Ideal) x0 x1 x2 x3 = agg
  generalize val_main_v33 (F := Ideal) x0 x1 x2 x3 = xi
  simp only [val_main_v49_apply, val_main_v54_apply, el, er, el', er', Ideal.addf_def]

/-- The head's unit c at node r after the rectifier, as the reference computes it, is the specification's. -/
theorem ref_act (x0 : (⟨S200000x64, .f32⟩ : BufTy).Contents (Elt Ideal))
    (x1 : (⟨S2x1600000, .i32⟩ : BufTy).Contents (Elt Ideal)) (x2 : (⟨S128x63, .f32⟩ : BufTy).Contents (Elt Ideal))
    (x3 : (⟨S128, .f32⟩ : BufTy).Contents (Elt Ideal))
    (x4 : (⟨S128x129, .f32⟩ : BufTy).Contents (Elt Ideal)) (x5 : (⟨S128, .f32⟩ : BufTy).Contents (Elt Ideal))
    (x6 : (⟨S128x129, .f32⟩ : BufTy).Contents (Elt Ideal)) (x7 : (⟨S128x128, .f32⟩ : BufTy).Contents (Elt Ideal))
    (x8 : (⟨S128, .f32⟩ : BufTy).Contents (Elt Ideal)) (r : Fin 200000) (c : Fin 128) :
    val_main_v62 (F := Ideal) x0 x1 x2 x3 x4 x5 x6 x7 x8 (ix2 r c)
      = actAt (val_main_v48 (F := Ideal) x0 x1 x2 x3) (val_main_v33 (F := Ideal) x0 x1 x2 x3) x4 x5 x6 x7 x8 r c := by
  have el : ∀ k : Fin 128, lidx_main_v58 (ix2 r c) k = ix2 r k := fun k => funext fun a => Fin.ext (by match a with | ⟨0, _⟩ => rfl | ⟨1, _⟩ => rfl)
  have er : ∀ k : Fin 128, idx_main_v57 (ridx_main_v58 (ix2 r c) k) = ix2 c k := fun k => funext fun a => Fin.ext (by match a with | ⟨0, _⟩ => rfl | ⟨1, _⟩ => rfl)
  have eb : idx_main_v59 (idx_main_v60 (ix2 r c)) = ix1 c := funext fun a => Fin.ext (by match a with | ⟨0, _⟩ => rfl)
  unfold actAt
  rw [val_main_v62_apply, val_main_v61_apply, val_main_v58_apply, val_main_v60_apply, val_main_v59_apply, eb,
    val_main_call0_v0_apply, val_main_call0_cst_apply]
  simp only [val_main_v57_apply, el, er, ref_hid, Ideal.addf_def, Ideal.maximumf_def, Ideal.ofBits_def,
    Ideal.ofBits_zero_f32]

/-- The reference's output at node r is the specification's. -/
theorem ref_out_apply (x0 : (⟨S200000x64, .f32⟩ : BufTy).Contents (Elt Ideal))
    (x1 : (⟨S2x1600000, .i32⟩ : BufTy).Contents (Elt Ideal)) (x2 : (⟨S128x63, .f32⟩ : BufTy).Contents (Elt Ideal))
    (x3 : (⟨S128, .f32⟩ : BufTy).Contents (Elt Ideal))
    (x4 : (⟨S128x129, .f32⟩ : BufTy).Contents (Elt Ideal)) (x5 : (⟨S128, .f32⟩ : BufTy).Contents (Elt Ideal))
    (x6 : (⟨S128x129, .f32⟩ : BufTy).Contents (Elt Ideal)) (x7 : (⟨S128x128, .f32⟩ : BufTy).Contents (Elt Ideal))
    (x8 : (⟨S128, .f32⟩ : BufTy).Contents (Elt Ideal)) (x9 : (⟨S1x128, .f32⟩ : BufTy).Contents (Elt Ideal))
    (x10 : (⟨S1, .f32⟩ : BufTy).Contents (Elt Ideal)) (r : Fin 200000) :
    val_main_v67 (F := Ideal) x0 x1 x2 x3 x4 x5 x6 x7 x8 x9 x10 (ix2 r (0 : Fin 1))
      = outAt (val_main_v48 (F := Ideal) x0 x1 x2 x3) (val_main_v33 (F := Ideal) x0 x1 x2 x3) x4 x5 x6 x7 x8 x9 x10 r := by
  have el : ∀ k : Fin 128, lidx_main_v64 (ix2 r (0 : Fin 1)) k = ix2 r k := fun k => funext fun a => Fin.ext (by match a with | ⟨0, _⟩ => rfl | ⟨1, _⟩ => rfl)
  have er : ∀ k : Fin 128, idx_main_v63 (ridx_main_v64 (ix2 r (0 : Fin 1)) k) = ix2 (0 : Fin 1) k := fun k => funext fun a => Fin.ext (by match a with | ⟨0, _⟩ => rfl | ⟨1, _⟩ => rfl)
  have eb : idx_main_v65 (idx_main_v66 (ix2 r (0 : Fin 1))) = ix1 (0 : Fin 1) := funext fun a => Fin.ext (by match a with | ⟨0, _⟩ => rfl)
  unfold outAt
  rw [val_main_v67_apply, val_main_v64_apply, val_main_v66_apply, val_main_v65_apply, eb]
  simp only [val_main_v63_apply, el, er, ref_act, Ideal.addf_def]

/-- The reference's output array is the specification's head over the reference's aggregate and node features. -/
theorem ref_out (x0 : (⟨S200000x64, .f32⟩ : BufTy).Contents (Elt Ideal))
    (x1 : (⟨S2x1600000, .i32⟩ : BufTy).Contents (Elt Ideal)) (x2 : (⟨S128x63, .f32⟩ : BufTy).Contents (Elt Ideal))
    (x3 : (⟨S128, .f32⟩ : BufTy).Contents (Elt Ideal))
    (x4 : (⟨S128x129, .f32⟩ : BufTy).Contents (Elt Ideal)) (x5 : (⟨S128, .f32⟩ : BufTy).Contents (Elt Ideal))
    (x6 : (⟨S128x129, .f32⟩ : BufTy).Contents (Elt Ideal)) (x7 : (⟨S128x128, .f32⟩ : BufTy).Contents (Elt Ideal))
    (x8 : (⟨S128, .f32⟩ : BufTy).Contents (Elt Ideal)) (x9 : (⟨S1x128, .f32⟩ : BufTy).Contents (Elt Ideal))
    (x10 : (⟨S1, .f32⟩ : BufTy).Contents (Elt Ideal)) :
    val_main_v67 (F := Ideal) x0 x1 x2 x3 x4 x5 x6 x7 x8 x9 x10
      = Cert.SageSpec.outOf (val_main_v48 (F := Ideal) x0 x1 x2 x3) (val_main_v33 (F := Ideal) x0 x1 x2 x3) x4 x5 x6 x7 x8 x9 x10 := by
  funext i
  obtain ⟨r, u, rfl⟩ : ∃ (r : Fin 200000) (u : Fin 1), i = ix2 r u := ⟨i 0, i 1, eq_ix2 i⟩
  obtain rfl : u = 0 := Subsingleton.elim _ _
  exact ref_out_apply x0 x1 x2 x3 x4 x5 x6 x7 x8 x9 x10 r

end Cert.ReferenceIdeal.RefValue

end
-- ==== Proof.RefValue.lean ====
/-
  The reference's two arrays are the specification's: the node features (`ref_xi`) and the output over the
  reference's own aggregate and node features (`ref_out`).
-/
import proofs.«133648_j59365037965463_1_alg».proof.Proof.RefXi
import proofs.«133648_j59365037965463_1_alg».proof.Proof.RefOut
-- ==== Proof.LibGatherPair.lean ====
/-
  A gather of single elements of a matrix at a two-column table of positions, read at an index.

  Taking elements of a matrix `x : [N, M]` at an integer table `idx : [R, 2]` — row `e` of the table holds a row
  position and a column position — is a gather that collapses both of the operand's axes (slices of one element), has
  no offset axis, and reads the start index of axis 0 off the table's column 0 and that of axis 1 off its column 1.
  Its element `e` is `x` at (`idx[e, 0]`, `idx[e, 1]`), each position read as a signed integer and clamped into its
  axis, `[0, N − 1]` and `[0, M − 1]`, as every start index of a gather is.
-/
import Idealize.ShloMosaic.PureOps
import Idealize.ShloMosaic.Lib.ValueIdx

namespace Cert.Lib.GatherPair

open Idealize.ShloMosaic Idealize.ShloMosaic.ValueIdx

variable {α : Type}

/-- The dimension numbers of that gather for an operand `[N, M]`, start indices `[R, 2]` and a result `[R]`. -/
abbrev pairDims (N M R : Nat) (wf : GatherDims.WF ⟨2, ![N, M]⟩ ⟨2, ![R, 2]⟩ ⟨1, ![R]⟩ [] [0, 1] [] [0, 1] [] 1 ![1, 1]) :
    GatherDims ⟨2, ![N, M]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

private theorem mem0 : (0 : Fin 2) ∈ ([0, 1] : List (Fin 2)) := by decide
private theorem mem1 : (1 : Fin 2) ∈ ([0, 1] : List (Fin 2)) := by decide

/-- The operand coordinate on axis 0 for result entry `e`: the table's column 0, clamped. -/
theorem operandIdx_zero {N M R w : Nat}
    (wf : GatherDims.WF ⟨2, ![N, M]⟩ ⟨2, ![R, 2]⟩ ⟨1, ![R]⟩ [] [0, 1] [] [0, 1] [] 1 ![1, 1])
    (idx : IVec ⟨2, ![R, 2]⟩ w) (e : Fin R) :
    ((pairDims N M R wf).operandIdx (ix1 e) idx (0 : Fin 2)).val = min (idx (ix2 e (0 : Fin 2))).toInt.toNat (N - 1) := by
  show (pairDims N M R wf).start (ix1 e) idx 0 + (pairDims N M R wf).batchCoord (ix1 e) 0 + (pairDims N M R wf).offCoord (ix1 e) 0 = _
  rw [GatherDims.batchCoord_eq_zero _ _ _ List.not_mem_nil,
    GatherDims.offCoord_eq_zero _ _ _ (fun h => ((GatherDims.mem_sKept _ _).mp h).1 mem0)]
  simp only [Nat.add_zero]
  unfold GatherDims.start
  rw [dif_pos (show (0 : Fin 2) ∈ (pairDims N M R wf).startIndexMap from mem0)]
  have hsi : (pairDims N M R wf).siIdx (ix1 e) ⟨List.idxOf (0 : Fin 2) (pairDims N M R wf).startIndexMap,
      List.idxOf_lt_length_iff.2 mem0⟩ = ix2 e (0 : Fin 2) := by
    funext b; refine Fin.ext ?_
    match b with
    | ⟨0, _⟩ => rfl
    | ⟨1, _⟩ => rfl
  rw [hsi]
  rfl

/-- The operand coordinate on axis 1 for result entry `e`: the table's column 1, clamped. -/
theorem operandIdx_one {N M R w : Nat}
    (wf : GatherDims.WF ⟨2, ![N, M]⟩ ⟨2, ![R, 2]⟩ ⟨1, ![R]⟩ [] [0, 1] [] [0, 1] [] 1 ![1, 1])
    (idx : IVec ⟨2, ![R, 2]⟩ w) (e : Fin R) :
    ((pairDims N M R wf).operandIdx (ix1 e) idx (1 : Fin 2)).val = min (idx (ix2 e (1 : Fin 2))).toInt.toNat (M - 1) := by
  show (pairDims N M R wf).start (ix1 e) idx 1 + (pairDims N M R wf).batchCoord (ix1 e) 1 + (pairDims N M R wf).offCoord (ix1 e) 1 = _
  rw [GatherDims.batchCoord_eq_zero _ _ _ List.not_mem_nil,
    GatherDims.offCoord_eq_zero _ _ _ (fun h => ((GatherDims.mem_sKept _ _).mp h).1 mem1)]
  simp only [Nat.add_zero]
  unfold GatherDims.start
  rw [dif_pos (show (1 : Fin 2) ∈ (pairDims N M R wf).startIndexMap from mem1)]
  have hsi : (pairDims N M R wf).siIdx (ix1 e) ⟨List.idxOf (1 : Fin 2) (pairDims N M R wf).startIndexMap,
      List.idxOf_lt_length_iff.2 mem1⟩ = ix2 e (1 : Fin 2) := by
    funext b; refine Fin.ext ?_
    match b with
    | ⟨0, _⟩ => rfl
    | ⟨1, _⟩ => rfl
  rw [hsi]
  rfl

/-- THE GATHER READ AT `e`: the operand at the row position `idx[e, 0]` and the column position `idx[e, 1]`, each
    read signed and clamped into its axis. -/
theorem gather_pair_apply {N M R w : Nat} (hN : 0 < N) (hM : 0 < M)
    (wf : GatherDims.WF ⟨2, ![N, M]⟩ ⟨2, ![R, 2]⟩ ⟨1, ![R]⟩ [] [0, 1] [] [0, 1] [] 1 ![1, 1])
    (x : (⟨2, ![N, M]⟩ : Shape).Idx → α) (idx : IVec ⟨2, ![R, 2]⟩ w) (e : Fin R) :
    Host.gather (pairDims N M R wf) x idx (ix1 e)
      = x (ix2 (⟨min (idx (ix2 e (0 : Fin 2))).toInt.toNat (N - 1), by omega⟩ : Fin N)
               (⟨min (idx (ix2 e (1 : Fin 2))).toInt.toNat (M - 1), by omega⟩ : Fin M)) := by
  unfold Host.gather
  congr 1
  funext a
  refine Fin.ext ?_
  match a with
  | ⟨0, _⟩ => exact operandIdx_zero wf idx e
  | ⟨1, _⟩ => exact operandIdx_one wf idx e

end Cert.Lib.GatherPair
-- ==== Proof.LibGatherVec.lean ====
/-
  A gather of single elements of a vector, read at an index.

  Taking elements of a vector `x : [N]` at an integer column of positions `idx : [R, 1]` is a gather that collapses the
  operand's one axis (slices of one element), has no offset axis, and reads each start index off `idx`'s second axis.
  Its element `e` is `x` at the position `idx[e, 0]` — read as a signed integer and clamped into `[0, N − 1]`, as every
  start index of a gather is.
-/
import Idealize.ShloMosaic.PureOps
import Idealize.ShloMosaic.Lib.ValueIdx

namespace Cert.Lib.GatherVec

open Idealize.ShloMosaic Idealize.ShloMosaic.ValueIdx

variable {α : Type}

/-- The dimension numbers of that gather for an operand `[N]`, start indices `[R, 1]` and a result `[R]`. -/
abbrev vecDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE GATHER READ AT `e`: the operand at the position `idx[e, 0]`, read signed and clamped into `[0, N − 1]`. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecDims N R wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecDims N R wf).start (ix1 e) idx 0 + (vecDims N R wf).batchCoord (ix1 e) 0 + (vecDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 e) ⟨List.idxOf (0 : Fin 1) (vecDims N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.Lib.GatherVec
-- ==== Proof.LibColumns.lean ====
/-
  Columns and rows of a rank-2 array, read at an index given by coordinates.

  A row-wise computation on an `[a, b]` array keeps one value per row in a COLUMN, an array of shape `[a, 1]`:
  it cuts single columns out of the array, casts a vector of `a` row results to a column, and broadcasts a column
  back along the second axis. Each of these reads, at `(r, ·)`, one entry of its operand in row `r`:
  • column `o` cut out of `[a, b]` reads the array at `(r, o)` (`slice_col_apply`);
  • a vector `[a]` cast to a column `[a, 1]` reads entry `r` (`shapeCast_a_a1_apply`);
  • a column `[a, 1]` broadcast to `[a, b]` reads, at `(r, j)`, the column's entry `r` for every `j`
    (`broadcastTo_a1_ab_apply`).
  A reduction of `[a, b]` along its second axis reads, at row `r`, a fold over the row's `b` entries. Over the
  extended reals `min` and `max` commute and associate, so the order of the fold does not matter and a kernel's
  vector reduction and a host reduce of the same row are the same fold over `Fin b`, started from the
  accumulator's (the initial value's) extended real (`multiReduction_minimumf_row`, `multiReduction_maximumf_row`,
  `hostReduce_minimumf_row`, `hostReduce_maximumf_row`). The index that a row's result `r` and a coordinate `k`
  on the reduced axis name together is `(r, k)` (`lift_row`).
-/
import Idealize.ShloMosaic.Lib.ValueLayout
import Idealize.ShloMosaic.Lib.ValueIdx
import Idealize.ShloMosaic.Lib.Pipeline.Value
import Idealize.ShloMosaic.PureOps.Ideal.Laws
import Idealize.ShloMosaic.PureOps.Reduce

noncomputable section

namespace Cert.Columns

open Idealize.ShloMosaic Idealize.ShloMosaic.ValueIdx

variable {α : Type}

/-! ## Layout operations on columns -/

/-- Column `o` of an `[a, b]` array, cut out as a column `[a, 1]`, reads at `(r, u)` the array at `(r, o)`. -/
theorem slice_col_apply {a b : ℕ} (o : ℕ) (ho : o < b) (X : (⟨2, ![a, b]⟩ : Shape).Idx → α)
    (h : (⟨2, ![a, b]⟩ : Shape).Slices ![0, o] ⟨2, ![a, 1]⟩) (r : Fin a) (u : Fin 1) :
    extractStridedSlice ⟨2, ![a, 1]⟩ ![0, o] X h (ix2 r u) = X (ix2 r (⟨o, ho⟩ : Fin b)) :=
  slice2_axis1_apply o X h r u ⟨o, ho⟩ (by have := u.isLt; show o = o + u.val; omega)

/-- A vector of `a` entries cast to a column `[a, 1]` reads, at `(r, u)`, entry `r`: the two indices have the same
    row-major position `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast along the second axis to `[a, b]` reads, at `(r, j)`, the column's entry `r`. -/
theorem broadcastTo_a1_ab_apply {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-! ## A row's reduction along the second axis -/

/-- Row `r` of the reduced array with coordinate `k` put back on the reduced (second) axis is the index `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A kernel's minimum reduction of an `[a, b]` array along its second axis, at the extended reals, read at row `r`:
    the fold of `min` from the accumulator's value over the row's `b` entries. -/
theorem multiReduction_minimumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_row h r k))

/-- The same for a maximum reduction: the fold of `max` over the row. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [multiReduction_maximumf_eq_fold]
  refine (h.fold_filter_drop_single _ _ src (ix1 r)).trans ?_
  exact congrArg (fun f => Finset.fold max (Ideal.ofBits φ acc) f (Finset.univ : Finset (Fin b)))
    (funext fun k => congrArg src (lift_row h r k))

/-- A host reduce with a minimum body of an `[a, b]` array along its second axis, from the scalar constant `w`, read
    at row `r`: the same fold of `min` over the row, from the extended real `w` denotes. -/
theorem hostReduce_minimumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.minimumf x (constant (F := Ideal) (⟨0, ![]⟩ : Shape) .f32 w) h' hu (ix1 r)
      = (Finset.univ : Finset (Fin b)).fold min (Ideal.ofBits .f32 w) (fun k => x (ix2 r k)) := by
  rw [Host.reduce_eq_fold_single FloatOps.minimumf x _ h' h hu]
  exact congrArg (fun f => Finset.fold min (Ideal.ofBits .f32 w) f (Finset.univ : Finset (Fin b)))
    (funext fun k => congrArg x (lift_row h r k))

/-- The same for a maximum body: the fold of `max` over the row. -/
theorem hostReduce_maximumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.maximumf x (constant (F := Ideal) (⟨0, ![]⟩ : Shape) .f32 w) h' hu (ix1 r)
      = (Finset.univ : Finset (Fin b)).fold max (Ideal.ofBits .f32 w) (fun k => x (ix2 r k)) := by
  rw [Host.reduce_eq_fold_single FloatOps.maximumf x _ h' h hu]
  exact congrArg (fun f => Finset.fold max (Ideal.ofBits .f32 w) f (Finset.univ : Finset (Fin b)))
    (funext fun k => congrArg x (lift_row h r k))

end Cert.Columns

end
-- ==== Proof.RefBridge.lean ====
/-
  The reference's mean price and its in-neighbour mean are the kernel program's host chain.

  Both programs prepare the edge list the same way (the two rows as vectors, a source below zero counted from the
  end, each vector as a one-column table), count the in-degree by scattering ones to the destinations, and take a mean
  over in-neighbours as a scattered sum divided by the larger of the in-degree and one. Written over two programs'
  shape records these are the same operations of the same arrays, so each step below holds by unfolding the few
  definitions it names; the gathers and scatters themselves are never opened. The one real difference is the per-edge
  price: the reference takes elements of the input matrix at a two-column table (the wrapped source, and a zero for the
  column), the kernel program takes column 0 of the matrix as a vector at the wrapped sources. Entry by entry both
  are the matrix at (the clamped source, 0).
-/
import proofs.«133648_j59365037965463_1_alg».proof.Proof.Gen.ReferenceIdeal.Read
import proofs.«133648_j59365037965463_1_alg».proof.Proof.HostChain
import proofs.«133648_j59365037965463_1_alg».proof.Proof.LibGatherPair
import proofs.«133648_j59365037965463_1_alg».proof.Proof.LibGatherVec
import proofs.«133648_j59365037965463_1_alg».proof.Proof.LibColumns

noncomputable section

namespace Cert.ReferenceIdeal.RefBridge

open Cert.ReferenceIdeal Cert.ReferenceIdeal.Read Idealize.ShloMosaic Idealize.ShloMosaic.ValueIdx
open Cert.KernelIdeal.HostChain

/-! ## The edge list's preparation, the same in both programs -/

/-- The source row as a vector. -/
theorem src_eq (x1 : (⟨S2x1600000, .i32⟩ : BufTy).Contents (Elt Ideal)) :
    val_main_v1 (F := Ideal) x1 = srcVec (F := Ideal) x1 := rfl

/-- The destination row as a vector. -/
theorem dst_eq (x1 : (⟨S2x1600000, .i32⟩ : BufTy).Contents (Elt Ideal)) :
    val_main_v3 (F := Ideal) x1 = dstVec (F := Ideal) x1 := rfl

/-- The sources with those below zero counted from the end, as the first stretch computes them. -/
theorem wrap14_eq (x1 : (⟨S2x1600000, .i32⟩ : BufTy).Contents (Elt Ideal)) :
    val_main_v14 (F := Ideal) x1 = wrapNeg (F := Ideal) (srcVec (F := Ideal) x1) := by
  unfold val_main_v14 val_main_v11 val_main_v13 val_main_v10 val_main_v12 val_main_c val_main_c_0
  rw [src_eq]
  rfl

/-- The same, as the second stretch computes them again. -/
theorem wrap38_eq (x1 : (⟨S2x1600000, .i32⟩ : BufTy).Contents (Elt Ideal)) :
    val_main_v38 (F := Ideal) x1 = wrapNeg (F := Ideal) (srcVec (F := Ideal) x1) := by
  unfold val_main_v38 val_main_v35 val_main_v37 val_main_v34 val_main_v36 val_main_c_5 val_main_c_6
  rw [src_eq]
  rfl

/-- The in-degree: ones scattered to the destinations. -/
theorem cnt_eq (x1 : (⟨S2x1600000, .i32⟩ : BufTy).Contents (Elt Ideal)) :
    val_main_v24 (F := Ideal) x1 = cntOfDst (F := Ideal) (dstVec (F := Ideal) x1) := by
  unfold val_main_v24 val_main_v23 val_main_v22 val_main_v21 val_main_cst val_main_cst_2
  rw [dst_eq]
  rfl

/-- The reference's in-neighbour mean of its node features is the host chain's, over the same edge list. -/
theorem ref_agg (x0 : (⟨S200000x64, .f32⟩ : BufTy).Contents (Elt Ideal)) (x1 : (⟨S2x1600000, .i32⟩ : BufTy).Contents (Elt Ideal))
    (x2 : (⟨S128x63, .f32⟩ : BufTy).Contents (Elt Ideal)) (x3 : (⟨S128, .f32⟩ : BufTy).Contents (Elt Ideal)) :
    val_main_v48 (F := Ideal) x0 x1 x2 x3
      = Cert.KernelIdeal.HostChain.aggOf (F := Ideal) (val_main_v33 (F := Ideal) x0 x1 x2 x3) x1 := by
  unfold val_main_v48 val_main_v47 val_main_v46 val_main_v45 val_main_v44 val_main_v43 val_main_v42 val_main_v41
    val_main_v40 val_main_v39 val_main_cst_7 val_main_cst_8
  generalize val_main_v33 (F := Ideal) x0 x1 x2 x3 = xi
  rw [wrap38_eq, dst_eq, cnt_eq]
  rfl

/-! ## The per-edge price -/

/-- Column 0 of a matrix as a vector, read at r: the matrix at (r, 0). -/
theorem col0_apply (x : (⟨Cert.KernelIdeal.S200000x64, .f32⟩ : BufTy).Contents (Elt Ideal)) (r : Fin 200000) :
    col0 (F := Ideal) x (ix1 r) = x (ix2 r (⟨0, by decide⟩ : Fin 64)) := by
  unfold col0
  refine (shapeCast_apply _ _ (ix1 r) (ix2 r (0 : Fin 1)) ?_).trans ?_
  · rw [Shape.rowMajor_val_two, Shape.rowMajor_val_one]
    show r.val * 1 + 0 = r.val
    omega
  · exact Cert.Columns.slice_col_apply 0 (by decide) x _ r 0

/-- The reference's table of positions, column 0: the wrapped sources. -/
theorem table_col0 (x1 : (⟨S2x1600000, .i32⟩ : BufTy).Contents (Elt Ideal)) (e : Fin 1600000) :
    val_main_v19 (F := Ideal) x1 (ix2 e (0 : Fin 2)) = srcCol (F := Ideal) x1 (ix2 e (0 : Fin 1)) := by
  have h17 : val_main_v17 (F := Ideal) x1 = srcCol (F := Ideal) x1 := by
    unfold val_main_v17
    rw [wrap14_eq]
    rfl
  unfold val_main_v19
  refine (concatenate_pair_apply_left 1 (val_main_v17 (F := Ideal) x1) (val_main_v18 (F := Ideal)) _
    (ix2 e (0 : Fin 2)) rfl (ix2 e (0 : Fin 1)) ?_).trans ?_
  · intro b
    match b with
    | ⟨0, _⟩ => rfl
    | ⟨1, _⟩ => rfl
  · rw [h17]

/-- The reference's table of positions, column 1: the zero word. -/
theorem table_col1 (x1 : (⟨S2x1600000, .i32⟩ : BufTy).Contents (Elt Ideal)) (e : Fin 1600000) :
    val_main_v19 (F := Ideal) x1 (ix2 e (1 : Fin 2)) = 0#32 := by
  unfold val_main_v19
  refine (concatenate_pair_apply_right 1 (val_main_v17 (F := Ideal) x1) (val_main_v18 (F := Ideal)) _
    (ix2 e (1 : Fin 2)) rfl rfl (ix2 e (0 : Fin 1)) ?_ ?_).trans ?_
  · intro b hb
    match b with
    | ⟨0, _⟩ => rfl
    | ⟨1, _⟩ => exact absurd rfl hb
  · show 0 + 1 = 1
    rfl
  · rw [val_main_v18_apply, val_main_v16_apply, val_main_v15_apply, val_main_c_1_apply]

/-- The per-edge price: the reference's elements of the matrix at (wrapped source, 0) are the kernel program's
    elements of column 0 at the wrapped sources. -/
theorem price_eq (x0 : (⟨S200000x64, .f32⟩ : BufTy).Contents (Elt Ideal)) (x1 : (⟨S2x1600000, .i32⟩ : BufTy).Contents (Elt Ideal)) :
    val_main_v20 (F := Ideal) x0 x1 = priceK (F := Ideal) x0 x1 := by
  funext i
  obtain ⟨e, rfl⟩ : ∃ e : Fin 1600000, i = ix1 e := ⟨i 0, eq_ix1 i⟩
  unfold val_main_v20 priceK
  refine (Cert.Lib.GatherPair.gather_pair_apply (N := 200000) (M := 64) (R := 1600000) (by decide) (by decide) _ x0
    (val_main_v19 (F := Ideal) x1) e).trans ?_
  refine Eq.trans ?_ (Cert.Lib.GatherVec.gather_vec_apply (N := 200000) (R := 1600000) (by decide) _
    (col0 (F := Ideal) x0) (srcCol (F := Ideal) x1) e).symm
  rw [col0_apply]
  refine congrArg x0 (funext fun a => Fin.ext ?_)
  match a with
  | ⟨0, _⟩ =>
    show min (val_main_v19 (F := Ideal) x1 (ix2 e (0 : Fin 2))).toInt.toNat (200000 - 1)
      = min (srcCol (F := Ideal) x1 (ix2 e (0 : Fin 1))).toInt.toNat (200000 - 1)
    rw [table_col0]
  | ⟨1, _⟩ =>
    show min (val_main_v19 (F := Ideal) x1 (ix2 e (1 : Fin 2))).toInt.toNat (64 - 1) = 0
    rw [table_col1]
    rfl

/-! ## The mean price -/

/-- The reference's mean price is the host chain's mean over in-neighbours of the kernel program's per-edge price. -/
theorem ref_pmean (x0 : (⟨S200000x64, .f32⟩ : BufTy).Contents (Elt Ideal)) (x1 : (⟨S2x1600000, .i32⟩ : BufTy).Contents (Elt Ideal)) :
    val_main_v30 (F := Ideal) x0 x1
      = Cert.KernelIdeal.HostChain.pmeanOf (F := Ideal) (Cert.KernelIdeal.HostChain.priceK (F := Ideal) x0 x1) x1 := by
  unfold val_main_v30 val_main_v29 val_main_v28 val_main_v27 val_main_v26 val_main_v25 val_main_cst_3 val_main_cst_4
  rw [price_eq, dst_eq, cnt_eq]
  generalize priceK (F := Ideal) x0 x1 = price
  rfl

end Cert.ReferenceIdeal.RefBridge

end
-- ==== Proof.RValue.lean ====
/-
  The reference program's result is the common function of its arguments.

  The reference's run ends with its result at the composed term of its host operations. Read stage by stage, that
  term is the head over the graph convolution of its two [200000, 129] arrays; the first of them is the in-neighbour
  mean of the second; the second is the node features of x joined with the mean price; and its mean price is the
  in-neighbour mean of column 0 of x at the sources. Chained, the term is `resultOf` of the eleven arguments.
-/
import proofs.«133648_j59365037965463_1_alg».proof.Proof.Gen.ReferenceIdeal.Run
import proofs.«133648_j59365037965463_1_alg».proof.Proof.Gen.ReferenceIdeal.Read
import proofs.«133648_j59365037965463_1_alg».proof.Proof.RefValue
import proofs.«133648_j59365037965463_1_alg».proof.Proof.RefBridge
import proofs.«133648_j59365037965463_1_alg».proof.Proof.Result

noncomputable section

namespace Cert.ReferenceIdeal.RValue

open Cert.ReferenceIdeal Cert.ReferenceIdeal.Read Cert.SageResult
open Idealize.ShloMosaic Idealize.ShloMosaic.TcCoe Idealize.SL.Sem

/-- The term the reference's run ends at is the common function of the arguments. -/
theorem result_value (m : (ℓ : Loc nD τ sig) → Buf (Elt Ideal) ℓ) (c : Dev nD) :
    Cert.ReferenceIdeal.Value.res_main_v67 (F := Ideal) m c = resultOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [val_main_v67_eq, Cert.ReferenceIdeal.RefValue.ref_out, Cert.ReferenceIdeal.RefBridge.ref_agg,
    Cert.ReferenceIdeal.RefValue.ref_xi, Cert.ReferenceIdeal.RefBridge.ref_pmean]
  rfl

end Cert.ReferenceIdeal.RValue

end
-- ==== Proof.lean ====
/-
  A two-stage graph network over 200000 nodes and 1600000 edges, as a tiled kernel program and as a plain reference,
  compute the same function of their eleven arguments over the extended reals.

  Both take x [200000, 64], an edge list [2, 1600000] and nine weights and biases. Both replace x's column 0, a price,
  by the mean price of each node's in-neighbours (a gather at the edges' sources, a scattered sum at their
  destinations, a division by max(in-degree, 1)); pass the other 63 columns through a tanh layer; join the 128 hidden
  units with the mean price into node features xi [200000, 129]; take the in-neighbour mean agg of xi; and apply
  out = max((agg Wlᵀ + bl + xi Wrᵀ) W2ᵀ + b2, 0) W3ᵀ + b3, one number per node. The edge list is returned unchanged.

  The kernel program runs the tanh layer and the head as two pipelined stages over node tiles of 2000 rows, with the
  gathers and scatters as host operations between them; the reference is host operations throughout. They differ in
  three ways, none of which changes a value over the extended reals: the kernel rounds matrix operands to a shorter
  float format, which is the identity here; it computes each stage tile by tile, and a matrix product's entry is the
  same sum of products whether the rows are taken 2000 at a time or all at once; and it gathers the price from
  column 0 of x taken as a vector, at a one-column table of sources, where the reference gathers from x itself at a
  two-column table (source, 0) — both read x at (the source clamped into the rows, column 0). The sums are in the
  same order and grouping on both sides, so no law that needs finite values is used, and the precondition is not
  opened.

  The modules: Spec (the node features and the output, entry by entry), HostChain (the host operations as functions),
  Result (the one function both compute); KRun (the kernel program's run with its result named), KHost (what the
  stages find in their inputs), KXiBody / KXi and KOutBody / KOut (each stage's output array is the specification's),
  XfpJoin (the first stage's input), KValue (the kernel's result); RefXi / RefOut / RefValue (the reference's arrays are
  the specification's), RefBridge (its mean price and neighbour mean are the host chain's), RValue (the reference's
  result). The kernel program idealizes with no rewrite, so `preserves` asks nothing.
-/
import proofs.«133648_j59365037965463_1_alg».proof.Defs
import proofs.«133648_j59365037965463_1_alg».proof.Proof.Gen.Kernel
import proofs.«133648_j59365037965463_1_alg».proof.Proof.Gen.Kernel.Frame
import proofs.«133648_j59365037965463_1_alg».proof.Proof.Gen.KernelIdeal
import proofs.«133648_j59365037965463_1_alg».proof.Proof.Gen.KernelIdeal.Frame
import proofs.«133648_j59365037965463_1_alg».proof.Proof.Gen.ReferenceIdeal
import proofs.«133648_j59365037965463_1_alg».proof.Proof.Gen.ReferenceIdeal.Run
import proofs.«133648_j59365037965463_1_alg».proof.Proof.Gen.Pre_finite_inputs
import proofs.«133648_j59365037965463_1_alg».proof.Proof.KValue
import proofs.«133648_j59365037965463_1_alg».proof.Proof.RValue
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with their result arrays at one function of the
    arguments, and with the edge list as launched. -/
theorem algebraic : Cert.algebraic_KernelIdeal_ReferenceIdeal := by
  intro m ρ m' ρ' _ hagree
  refine ⟨fun c => Cert.SageResult.resultOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => m ((c.tc : Thread Cert.KernelIdeal.nD Cert.KernelIdeal.τ).loc Cert.KernelIdeal.main_arg1), ?_, ?_⟩
  · exact (θ_run Cert.KernelIdeal.defs _ _).mono (fun r h c => ⟨(h c).1, (h c).2.2.1, (h c).2⟩)
      (Cert.KernelIdeal.KValue.run_value m ρ)
  · refine (θ_run Cert.ReferenceIdeal.defs _ _).mono
      (fun r h c => ⟨(h c).1.trans ?_, (h c).2.1.trans (hagree c).2.1, (h c).2.2⟩)
      (Cert.ReferenceIdeal.Value.run (F := Ideal) m' ρ')
    rw [Cert.ReferenceIdeal.RValue.result_value, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
